-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x8x256 : Shape := ⟨3, ![32768, 8, 256]⟩
abbrev S768x512 : Shape := ⟨2, ![768, 512]⟩
abbrev S1x768 : Shape := ⟨2, ![1, 768]⟩
abbrev S256x512 : Shape := ⟨2, ![256, 512]⟩
abbrev S256 : Shape := ⟨1, ![256]⟩
abbrev S_ : Shape := ⟨0, ![]⟩

class Facts : Prop where
  bcast_S_S32768x8x256 : S_.BroadcastsInDim S32768x8x256 (![] : Fin 0 → Fin S32768x8x256.rank)
  reducesTo_S32768x8x256_S_d0_1_2 : S32768x8x256.ReducesTo [0, 1, 2] S_
  h_S_ : 0 < S_.numel
  bcast_S_S768x512 : S_.BroadcastsInDim S768x512 (![] : Fin 0 → Fin S768x512.rank)
  reducesTo_S768x512_S_d0_1 : S768x512.ReducesTo [0, 1] S_
  bcast_S_S1x768 : S_.BroadcastsInDim S1x768 (![] : Fin 0 → Fin S1x768.rank)
  reducesTo_S1x768_S_d0_1 : S1x768.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x512 .f32) (main_arg5 : FVec F S256 .f32) (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S32768x8x256 .f32) (main_arg1 : FVec F S32768x8x256 .f32) (main_arg2 : FVec F S768x512 .f32) (main_arg3 : FVec F S1x768 .f32) (main_arg4 : FVec F S256x512 .f32) (main_arg5 : FVec F S256 .f32) : IVec S_ 1 :=
  let main_v0 : FVec F S32768x8x256 .f32 := Host.absf main_arg0
  let main_cst : FVec F S_ .f32 := constant S_ .f32 0x7F800000#32
  let main_v1 : FVec F S32768x8x256 .f32 := broadcastInDim S32768x8x256 ![] bcast_S_S32768x8x256 main_cst
  let main_v2 : IVec S32768x8x256 1 := cmpf .olt main_v0 main_v1
  let main_c : IVec S_ 1 := constantI S_ 1 1#1
  let main_v3 : IVec S_ 1 := (fun x v => Host.reduce IntOp.andi x v reducesTo_S32768x8x256_S_d0_1_2 h_S_) main_v2 main_c
  let main_v4 : FVec F S32768x8x256 .f32 := Host.absf main_arg1
  let main_cst_0 : FVec F S_ .f32 := constant S_ .f32 0x7F800000#32
  let main_v5 : FVec F S32768x8x256 .f32 := broadcastInDim S32768x8x256 ![] bcast_S_S32768x8x256 main_cst_0
  let main_v6 : IVec S32768x8x256 1 := cmpf .olt main_v4 main_v5
  let main_c_1 : IVec S_ 1 := constantI S_ 1 1#1
  let main_v7 : IVec S_ 1 := (fun x v => Host.reduce IntOp.andi x v reducesTo_S32768x8x256_S_d0_1_2 h_S_) main_v6 main_c_1
  let main_v8 : IVec S_ 1 := andi main_v3 main_v7
  let main_v9 : FVec F S768x512 .f32 := Host.absf main_arg2
  let main_cst_2 : FVec F S_ .f32 := constant S_ .f32 0x7F800000#32
  let main_v10 : FVec F S768x512 .f32 := broadcastInDim S768x512 ![] bcast_S_S768x512 main_cst_2
  let main_v11 : IVec S768x512 1 := cmpf .olt main_v9 main_v10
  let main_c_3 : IVec S_ 1 := constantI S_ 1 1#1
  let main_v12 : IVec S_ 1 := (fun x v => Host.reduce IntOp.andi x v reducesTo_S768x512_S_d0_1 h_S_) main_v11 main_c_3
  let main_v13 : IVec S_ 1 := andi main_v8 main_v12
  let main_v14 : FVec F S1x768 .f32 := Host.absf main_arg3
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_arg4 main_arg5 main_v13 main_v16
-- ==== Kernel.lean ====
abbrev S32768x8x256 : Shape := ⟨3, ![32768, 8, 256]⟩
abbrev S768x512 : Shape := ⟨2, ![768, 512]⟩
abbrev S1x768 : Shape := ⟨2, ![1, 768]⟩
abbrev S256x512 : Shape := ⟨2, ![256, 512]⟩
abbrev S256 : Shape := ⟨1, ![256]⟩
abbrev S512x256 : Shape := ⟨2, ![512, 256]⟩
abbrev S512x768 : Shape := ⟨2, ![512, 768]⟩
abbrev S512x1024 : Shape := ⟨2, ![512, 1024]⟩
abbrev S256x1024 : Shape := ⟨2, ![256, 1024]⟩
abbrev S1x256 : Shape := ⟨2, ![1, 256]⟩
abbrev S1x1024 : Shape := ⟨2, ![1, 1024]⟩
abbrev S32768x512 : Shape := ⟨2, ![32768, 512]⟩
abbrev S512x8x256 : Shape := ⟨3, ![512, 8, 256]⟩
abbrev S512x512 : Shape := ⟨2, ![512, 512]⟩

abbrev nBuf : Space → Nat
  | .hbm => 16
  | .vmem => 9
  | .smem => 0
  | _ => 0

abbrev bufTy : (tb : Table) → Fin (tcTables nBuf tb) → BufTy
  | .hbm, ⟨0, _⟩ => ⟨S32768x8x256, .f32⟩
  | .hbm, ⟨1, _⟩ => ⟨S32768x8x256, .f32⟩
  | .hbm, ⟨2, _⟩ => ⟨S768x512, .f32⟩
  | .hbm, ⟨3, _⟩ => ⟨S1x768, .f32⟩
  | .hbm, ⟨4, _⟩ => ⟨S256x512, .f32⟩
  | .hbm, ⟨5, _⟩ => ⟨S256, .f32⟩
  | .hbm, ⟨6, _⟩ => ⟨S512x256, .f32⟩
  | .hbm, ⟨7, _⟩ => ⟨S512x768, .f32⟩
  | .hbm, ⟨8, _⟩ => ⟨S512x1024, .f32⟩
  | .hbm, ⟨9, _⟩ => ⟨S256x1024, .f32⟩
  | .hbm, ⟨10, _⟩ => ⟨S256x1024, .bf16⟩
  | .hbm, ⟨11, _⟩ => ⟨S256x1024, .f32⟩
  | .hbm, ⟨12, _⟩ => ⟨S256x1024, .bf16⟩
  | .hbm, ⟨13, _⟩ => ⟨S1x256, .f32⟩
  | .hbm, ⟨14, _⟩ => ⟨S1x1024, .f32⟩
  | .hbm, ⟨15, _⟩ => ⟨S32768x512, .f32⟩
  | .local _ .vmem, ⟨0, _⟩ => ⟨S512x8x256, .f32⟩
  | .local _ .vmem, ⟨1, _⟩ => ⟨S512x8x256, .f32⟩
  | .local _ .vmem, ⟨2, _⟩ => ⟨S512x8x256, .f32⟩
  | .local _ .vmem, ⟨3, _⟩ => ⟨S512x8x256, .f32⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S512x512, .f32⟩
  | .local _ .vmem, ⟨8, _⟩ => ⟨S512x512, .f32⟩
  | _, _ => ⟨S32768x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S256x512_S512x256_1_0 : S256x512.Transposes [1, 0] S512x256
  transposes_S768x512_S512x768_1_0 : S768x512.Transposes [1, 0] S512x768
  concatenates_S512x256_S512x768_S512x1024_d1 : Shape.Concatenates [S512x256, S512x768] S512x1024 1
  slices_S512x1024_S256x1024_0_0 : S512x1024.Slices ![0, 0] S256x1024
  bitsLt_bf16_f32 : FTy.bits .bf16 < FTy.bits .f32
  slices_S512x1024_S256x1024_256_0 : S512x1024.Slices ![256, 0] S256x1024
  shapeCasts_S256_S1x256 : S256.ShapeCasts S1x256
  concatenates_S1x256_S1x768_S1x1024_d1 : Shape.Concatenates [S1x256, S1x768] S1x1024 1
  inb_S512x8x256_S512x8x256_0_0_0 : ∀ a, (![0, 0, 0] : Fin 3 → Nat) a + S512x8x256.size a ≤ S512x8x256.size a
  h_S512x8x256 : 0 < S512x8x256.numel
  reduces_S512x8x256_S512x256 : S512x8x256.Reduces [1] S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x256 : S512x1024.Slices ![0, 0] S512x256
  slices_S512x1024_o0_256_S512x768 : S512x1024.Slices ![0, 256] S512x768
  slices_S512x768_o0_0_S512x256 : S512x768.Slices ![0, 0] S512x256
  slices_S512x768_o0_256_S512x256 : S512x768.Slices ![0, 256] S512x256
  slices_S512x768_o0_512_S512x256 : S512x768.Slices ![0, 512] S512x256
  concatenates_S512x256_S512x256_S512x512_d1 : Shape.Concatenates [S512x256, S512x256] S512x512 1
  inb_S512x512_S512x512_0_0 : ∀ a, (![0, 0] : Fin 2 → Nat) a + S512x512.size a ≤ S512x512.size a
  h_S512x512 : 0 < S512x512.numel
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8x256.size a ≤ S32768x8x256.size a
  hwx0_0 : ∀ i : grid0.Coords, EltTy.bits .f32 = 32 ∨ (Rect.block (s := S32768x8x256) S512x8x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x8x256.size a ≤ S32768x8x256.size a
  hwx0_1 : ∀ i : grid0.Coords, EltTy.bits .f32 = 32 ∨ (Rect.block (s := S32768x8x256) S512x8x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S32768x512.size a
  hwx0_5 : ∀ i : grid0.Coords, EltTy.bits .f32 = 32 ∨ (Rect.block (s := S32768x512) S512x512.size (cc0_transform_5 i) (hinb0_5 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x8x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x8x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S512x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x8x256 : Shape := ⟨3, ![32768, 8, 256]⟩
abbrev S768x512 : Shape := ⟨2, ![768, 512]⟩
abbrev S1x768 : Shape := ⟨2, ![1, 768]⟩
abbrev S256x512 : Shape := ⟨2, ![256, 512]⟩
abbrev S256 : Shape := ⟨1, ![256]⟩
abbrev S_ : Shape := ⟨0, ![]⟩
abbrev S32768x256 : Shape := ⟨2, ![32768, 256]⟩
abbrev S32768x512 : Shape := ⟨2, ![32768, 512]⟩
abbrev S512x256 : Shape := ⟨2, ![512, 256]⟩
abbrev S1x256 : Shape := ⟨2, ![1, 256]⟩
abbrev S32768x1x256 : Shape := ⟨3, ![32768, 1, 256]⟩
abbrev S512x768 : Shape := ⟨2, ![512, 768]⟩
abbrev S32768x768 : Shape := ⟨2, ![32768, 768]⟩

abbrev nBuf : Space → Nat
  | .hbm => 58
  | .vmem => 0
  | .smem => 0
  | _ => 0

abbrev bufTy : (tb : Table) → Fin (tcTables nBuf tb) → BufTy
  | .hbm, ⟨0, _⟩ => ⟨S32768x8x256, .f32⟩
  | .hbm, ⟨1, _⟩ => ⟨S32768x8x256, .f32⟩
  | .hbm, ⟨2, _⟩ => ⟨S768x512, .f32⟩
  | .hbm, ⟨3, _⟩ => ⟨S1x768, .f32⟩
  | .hbm, ⟨4, _⟩ => ⟨S256x512, .f32⟩
  | .hbm, ⟨5, _⟩ => ⟨S256, .f32⟩
  | .hbm, ⟨6, _⟩ => ⟨S_, .f32⟩
  | .hbm, ⟨7, _⟩ => ⟨S32768x256, .f32⟩
  | .hbm, ⟨8, _⟩ => ⟨S_, .f32⟩
  | .hbm, ⟨9, _⟩ => ⟨S32768x256, .f32⟩
  | .hbm, ⟨10, _⟩ => ⟨S32768x512, .f32⟩
  | .hbm, ⟨11, _⟩ => ⟨S512x256, .f32⟩
  | .hbm, ⟨12, _⟩ => ⟨S32768x256, .f32⟩
  | .hbm, ⟨13, _⟩ => ⟨S1x256, .f32⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S32768x256, .f32⟩
  | .hbm, ⟨18, _⟩ => ⟨S_, .f32⟩
  | .hbm, ⟨19, _⟩ => ⟨S32768x256, .f32⟩
  | .hbm, ⟨20, _⟩ => ⟨S32768x256, .f32⟩
  | .hbm, ⟨21, _⟩ => ⟨S_, .f32⟩
  | .hbm, ⟨22, _⟩ => ⟨S32768x256, .f32⟩
  | .hbm, ⟨23, _⟩ => ⟨S32768x256, .f32⟩
  | .hbm, ⟨24, _⟩ => ⟨S32768x1x256, .f32⟩
  | .hbm, ⟨25, _⟩ => ⟨S32768x8x256, .f32⟩
  | .hbm, ⟨26, _⟩ => ⟨S32768x8x256, .f32⟩
  | .hbm, ⟨27, _⟩ => ⟨S_, .f32⟩
  | .hbm, ⟨28, _⟩ => ⟨S32768x256, .f32⟩
  | .hbm, ⟨29, _⟩ => ⟨S512x768, .f32⟩
  | .hbm, ⟨30, _⟩ => ⟨S32768x768, .f32⟩
  | .hbm, ⟨31, _⟩ => ⟨S32768x768, .f32⟩
  | .hbm, ⟨32, _⟩ => ⟨S32768x768, .f32⟩
  | .hbm, ⟨33, _⟩ => ⟨S32768x256, .f32⟩
  | .hbm, ⟨34, _⟩ => ⟨S32768x256, .f32⟩
  | .hbm, ⟨35, _⟩ => ⟨S32768x256, .f32⟩
  | .hbm, ⟨36, _⟩ => ⟨S32768x256, .f32⟩
  | .hbm, ⟨37, _⟩ => ⟨S32768x256, .f32⟩
  | .hbm, ⟨38, _⟩ => ⟨S_, .f32⟩
  | .hbm, ⟨39, _⟩ => ⟨S32768x256, .f32⟩
  | .hbm, ⟨40, _⟩ => ⟨S32768x256, .f32⟩
  | .hbm, ⟨41, _⟩ => ⟨S_, .f32⟩
  | .hbm, ⟨42, _⟩ => ⟨S32768x256, .f32⟩
  | .hbm, ⟨43, _⟩ => ⟨S32768x256, .f32⟩
  | .hbm, ⟨44, _⟩ => ⟨S32768x256, .f32⟩
  | .hbm, ⟨45, _⟩ => ⟨S32768x256, .f32⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S_, .f32⟩
  | .hbm, ⟨50, _⟩ => ⟨S32768x256, .f32⟩
  | .hbm, ⟨51, _⟩ => ⟨S32768x256, .f32⟩
  | .hbm, ⟨52, _⟩ => ⟨S_, .f32⟩
  | .hbm, ⟨53, _⟩ => ⟨S32768x256, .f32⟩
  | .hbm, ⟨54, _⟩ => ⟨S32768x256, .f32⟩
  | .hbm, ⟨55, _⟩ => ⟨S32768x256, .f32⟩
  | .hbm, ⟨56, _⟩ => ⟨S32768x256, .f32⟩
  | .hbm, ⟨57, _⟩ => ⟨S32768x512, .f32⟩
  | _, _ => ⟨S32768x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  reducesTo_S32768x8x256_S32768x256_d1 : S32768x8x256.ReducesTo [1] S32768x256
  h_S_ : 0 < S_.numel
  concatenates_S32768x256_S32768x256_S32768x512_d1 : Shape.Concatenates [S32768x256, S32768x256] S32768x512 1
  transposes_S256x512_S512x256_1_0 : S256x512.Transposes [1, 0] S512x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S32768x256_S32768x1x256_0_2 : S32768x256.BroadcastsInDim S32768x1x256 (![0, 2] : Fin 2 → Fin S32768x1x256.rank)
  bcast_S32768x1x256_S32768x8x256_0_1_2 : S32768x1x256.BroadcastsInDim S32768x8x256 (![0, 1, 2] : Fin 3 → Fin S32768x8x256.rank)
  transposes_S768x512_S512x768_1_0 : S768x512.Transposes [1, 0] S512x768
  bcast_S1x768_S32768x768_0_1 : S1x768.BroadcastsInDim S32768x768 (![0, 1] : Fin 2 → Fin S32768x768.rank)
  slices_S32768x768_S32768x256_0_0 : S32768x768.Slices ![0, 0] S32768x256
  slices_S32768x768_S32768x256_0_256 : S32768x768.Slices ![0, 256] S32768x256
  slices_S32768x768_S32768x256_0_512 : S32768x768.Slices ![0, 512] S32768x256
  dot_S32768x512_S512x256_S32768x256_1_0_0_1_n_n_wf : DotDims.WF S32768x512 S512x256 S32768x256 [1] [0] [0] [1] [] []
  dot_S32768x512_S512x768_S32768x768_1_0_0_1_n_n_wf : DotDims.WF S32768x512 S512x768 S32768x768 [1] [0] [0] [1] [] []

variable [Facts₀]

def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def dot_S32768x512_S512x768_S32768x768_1_0_0_1_n_n : DotDims S32768x512 S512x768 S32768x768 where
  lhsContracting := [1]
  rhsContracting := [0]
  lhsNonContracting := [0]
  rhsNonContracting := [1]
  lhsBatch := []
  rhsBatch := []
  wf := dot_S32768x512_S512x768_S32768x768_1_0_0_1_n_n_wf

class Facts : Prop extends Facts₀ where

variable [Facts]
-- ==== Proof.LibConcat.lean ====
/-
  A concatenation of two pieces with the pieces as arguments.

  `concatenate` takes its operands as a list of (shape, contents) pairs. `concat2` is the two-piece concatenation with
  the two contents as plain arguments — the same function, so that an equation between pieces is an equation between
  concatenations by congruence — and `concat2_fold` says a two-piece `concatenate` is it.
-/
import Idealize.ShloMosaic.PureOps.ShapeOps

namespace Cert.LibConcat

open Idealize.ShloMosaic

/-- The concatenation of `a` and `b` along axis `ax` of the result shape. -/
def concat2 {α : Type} (t : Shape) (ax : Fin t.rank) {s1 s2 : Shape} (a : s1.Idx → α) (b : s2.Idx → α)
    (h : Shape.Concatenates [s1, s2] t ax) : t.Idx → α :=
  concatenate t ax [⟨s1, a⟩, ⟨s2, b⟩] h

/-- A two-piece `concatenate` is `concat2` of its pieces. -/
theorem concat2_fold {α : Type} (t : Shape) (ax : Fin t.rank) {s1 s2 : Shape} (a : s1.Idx → α) (b : s2.Idx → α)
    (h : Shape.Concatenates [s1, s2] t ax) :
    concatenate t ax [⟨s1, a⟩, ⟨s2, b⟩] h = concat2 t ax a b h := rfl

end Cert.LibConcat
-- ==== Proof.Spec.lean ====
/-
  The child-sum Tree-LSTM cell over a mailbox of eight children, as ONE function of its argument arrays.

  A node (row) r holds eight child hidden rows h(r,k,·) and eight child memory rows c(r,k,·), k < 8, each 256 wide.
  The mailbox is first reduced along k:
      hSum(r,q) = Σ_k h(r,k,q),      hMax(r,q) = max_k h(r,k,q)  (from −∞),      cSum(r,q) = Σ_k c(r,k,q).
  Four gates are affine in the 512-wide row [hSum | hMax]. With the weights fused into 1024 gate columns and cut
  along the contraction into the 256 rows Wt that meet hSum and the 256 rows Wb that meet hMax, and a fused bias B,
      logit(r,j) = (Σ_{k<256} hSum(r,k)·Wt(k,j) + Σ_{k<256} hMax(r,k)·Wb(k,j)) + B(j),
  the forget gate sits in columns [0,256), the input, output and update gates in [256,512), [512,768), [768,1024):
      cNew = σ(i)·tanh(u) + σ(f)·cSum,      hNew = σ(o)·tanh(cNew),      the result row is [hNew | cNew],
  σ the logistic function 1/(1 + e^(−x)) on the extended reals (0 at −∞, 1 at +∞), so always a real in [0, 1].

  The fused weights, from U_f (256 × 512), U_iou (768 × 512), b_f (256), b_iou (1 × 768): gate column j < 256 is
  row j of U_f and entry j of b_f; gate column 256 + g is row g of U_iou and entry g of b_iou; the contraction
  index k < 256 reads weight column k for hSum and 256 + k for hMax.

  Two laws join the two ways programs compute this. A sum over 512 contraction indices is the sum over its first 256
  plus the sum over its last 256 (commutative monoid, nothing about finiteness). And a gate value σ(x), being a
  non-negative real, distributes over a sum of extended reals: σ(x)·Σ_k c_k = Σ_k σ(x)·c_k — which fails for a general
  extended-real factor (∞·(1 + (−1)) against ∞ − ∞) but holds for every factor in [0, ∞).
-/
import Idealize.ShloMosaic.PureOps.Ideal
import Idealize.ShloMosaic.PureOps.Ideal.Laws
import Idealize.ShloMosaic.Lib.ValueIdx

noncomputable section

namespace Cert.TreeCell

open Idealize.ShloMosaic Idealize.ShloMosaic.ValueIdx

/-! ## The cell on a block of R rows, over fused weights -/

variable {R : Nat}

/-- Gate column o + q of the 1024 fused columns. -/
abbrev gcol (o : Nat) (ho : o + 256 ≤ 1024) (q : Fin 256) : Fin 1024 :=
  ⟨o + q.val, Nat.lt_of_lt_of_le (Nat.add_lt_add_left q.isLt o) ho⟩

/-- The children's sum: Σ_k x(r,k,q). -/
def kSum (x : (⟨3, ![R, 8, 256]⟩ : Shape).Idx → EReal) (r : Fin R) (q : Fin 256) : EReal :=
  ∑ k : Fin 8, x (ix3 r k q)

/-- The children's maximum, from −∞ (the word 0xFF800000): max_k x(r,k,q). -/
def kMax (x : (⟨3, ![R, 8, 256]⟩ : Shape).Idx → EReal) (r : Fin R) (q : Fin 256) : EReal :=
  (Finset.univ : Finset (Fin 8)).fold max (Ideal.ofBits .f32 0xFF800000#32) fun k => x (ix3 r k q)

/-- A gate's pre-activation at row r, fused column j. -/
def logit (Wt Wb : Fin 256 → Fin 1024 → EReal) (B : Fin 1024 → EReal)
    (h : (⟨3, ![R, 8, 256]⟩ : Shape).Idx → EReal) (r : Fin R) (j : Fin 1024) : EReal :=
  (∑ k : Fin 256, kSum h r k * Wt k j + ∑ k : Fin 256, kMax h r k * Wb k j) + B j

/-- The new memory: σ(i)·tanh(u) + σ(f)·cSum. -/
def cNew (Wt Wb : Fin 256 → Fin 1024 → EReal) (B : Fin 1024 → EReal)
    (h c : (⟨3, ![R, 8, 256]⟩ : Shape).Idx → EReal) (r : Fin R) (q : Fin 256) : EReal :=
  Ideal.logistic (logit Wt Wb B h r (gcol 256 (by decide) q)) * Ideal.tanh (logit Wt Wb B h r (gcol 768 (by decide) q))
    + Ideal.logistic (logit Wt Wb B h r (gcol 0 (by decide) q)) * kSum c r q

/-- The new hidden state: σ(o)·tanh(cNew). -/
def hNew (Wt Wb : Fin 256 → Fin 1024 → EReal) (B : Fin 1024 → EReal)
    (h c : (⟨3, ![R, 8, 256]⟩ : Shape).Idx → EReal) (r : Fin R) (q : Fin 256) : EReal :=
  Ideal.logistic (logit Wt Wb B h r (gcol 512 (by decide) q)) * Ideal.tanh (cNew Wt Wb B h c r q)

/-- The result block: row r is [hNew(r,·) | cNew(r,·)]. -/
def out (Wt Wb : Fin 256 → Fin 1024 → EReal) (B : Fin 1024 → EReal)
    (h c : (⟨3, ![R, 8, 256]⟩ : Shape).Idx → EReal) : (⟨2, ![R, 512]⟩ : Shape).Idx → EReal := fun i =>
  if hq : (i 1).val < 256 then hNew Wt Wb B h c (i 0) ⟨(i 1).val, hq⟩
  else cNew Wt Wb B h c (i 0) ⟨(i 1).val - 256, by have := idx2_lt1 i; omega⟩

/-- In the left half of a row the result is the new hidden state. -/
theorem out_left (Wt Wb : Fin 256 → Fin 1024 → EReal) (B : Fin 1024 → EReal)
    (h c : (⟨3, ![R, 8, 256]⟩ : Shape).Idx → EReal) (r : Fin R) (q : Fin 256) (j : Fin 512) (hj : j.val = q.val) :
    out Wt Wb B h c (ix2 r j) = hNew Wt Wb B h c r q := by
  have hq : j.val < 256 := by have := q.isLt; omega
  show (if hq : j.val < 256 then hNew Wt Wb B h c r ⟨j.val, hq⟩ else _) = _
  rw [dif_pos hq]
  exact congrArg (hNew Wt Wb B h c r) (Fin.ext hj)

/-- In the right half of a row the result is the new memory. -/
theorem out_right (Wt Wb : Fin 256 → Fin 1024 → EReal) (B : Fin 1024 → EReal)
    (h c : (⟨3, ![R, 8, 256]⟩ : Shape).Idx → EReal) (r : Fin R) (q : Fin 256) (j : Fin 512) (hj : j.val = 256 + q.val) :
    out Wt Wb B h c (ix2 r j) = cNew Wt Wb B h c r q := by
  have hq : ¬ j.val < 256 := by omega
  show (if hq : j.val < 256 then _ else cNew Wt Wb B h c r ⟨j.val - 256, _⟩) = _
  rw [dif_neg hq]
  exact congrArg (cNew Wt Wb B h c r) (Fin.ext (by show j.val - 256 = q.val; omega))

/-- A column of the result lies in the left half or in the right half. -/
theorem out_cases (j : Fin 512) : (∃ q : Fin 256, j.val = q.val) ∨ (∃ q : Fin 256, j.val = 256 + q.val) := by
  by_cases hj : j.val < 256
  · exact .inl ⟨⟨j.val, hj⟩, rfl⟩
  · exact .inr ⟨⟨j.val - 256, by have := j.isLt; omega⟩, by show j.val = 256 + (j.val - 256); omega⟩

/-! ## A row of the result reads only that row of the mailboxes -/

theorem kSum_congr {R' : Nat} (x : (⟨3, ![R, 8, 256]⟩ : Shape).Idx → EReal) (x' : (⟨3, ![R', 8, 256]⟩ : Shape).Idx → EReal)
    (r : Fin R) (r' : Fin R') (hx : ∀ k q, x (ix3 r k q) = x' (ix3 r' k q)) (q : Fin 256) : kSum x r q = kSum x' r' q :=
  Finset.sum_congr rfl fun k _ => hx k q

theorem kMax_congr {R' : Nat} (x : (⟨3, ![R, 8, 256]⟩ : Shape).Idx → EReal) (x' : (⟨3, ![R', 8, 256]⟩ : Shape).Idx → EReal)
    (r : Fin R) (r' : Fin R') (hx : ∀ k q, x (ix3 r k q) = x' (ix3 r' k q)) (q : Fin 256) : kMax x r q = kMax x' r' q :=
  congrArg (fun f => (Finset.univ : Finset (Fin 8)).fold max (Ideal.ofBits .f32 0xFF800000#32) f) (funext fun k => hx k q)

theorem logit_congr {R' : Nat} (Wt Wb : Fin 256 → Fin 1024 → EReal) (B : Fin 1024 → EReal)
    (h : (⟨3, ![R, 8, 256]⟩ : Shape).Idx → EReal) (h' : (⟨3, ![R', 8, 256]⟩ : Shape).Idx → EReal)
    (r : Fin R) (r' : Fin R') (hh : ∀ k q, h (ix3 r k q) = h' (ix3 r' k q)) (j : Fin 1024) :
    logit Wt Wb B h r j = logit Wt Wb B h' r' j := by
  unfold logit
  rw [Finset.sum_congr rfl fun k _ => congrArg (· * Wt k j) (kSum_congr h h' r r' hh k),
    Finset.sum_congr rfl fun k _ => congrArg (· * Wb k j) (kMax_congr h h' r r' hh k)]

theorem cNew_congr {R' : Nat} (Wt Wb : Fin 256 → Fin 1024 → EReal) (B : Fin 1024 → EReal)
    (h c : (⟨3, ![R, 8, 256]⟩ : Shape).Idx → EReal) (h' c' : (⟨3, ![R', 8, 256]⟩ : Shape).Idx → EReal)
    (r : Fin R) (r' : Fin R') (hh : ∀ k q, h (ix3 r k q) = h' (ix3 r' k q)) (hc : ∀ k q, c (ix3 r k q) = c' (ix3 r' k q))
    (q : Fin 256) : cNew Wt Wb B h c r q = cNew Wt Wb B h' c' r' q := by
  unfold cNew
  rw [logit_congr Wt Wb B h h' r r' hh, logit_congr Wt Wb B h h' r r' hh, logit_congr Wt Wb B h h' r r' hh,
    kSum_congr c c' r r' hc]

theorem hNew_congr {R' : Nat} (Wt Wb : Fin 256 → Fin 1024 → EReal) (B : Fin 1024 → EReal)
    (h c : (⟨3, ![R, 8, 256]⟩ : Shape).Idx → EReal) (h' c' : (⟨3, ![R', 8, 256]⟩ : Shape).Idx → EReal)
    (r : Fin R) (r' : Fin R') (hh : ∀ k q, h (ix3 r k q) = h' (ix3 r' k q)) (hc : ∀ k q, c (ix3 r k q) = c' (ix3 r' k q))
    (q : Fin 256) : hNew Wt Wb B h c r q = hNew Wt Wb B h' c' r' q := by
  unfold hNew
  rw [logit_congr Wt Wb B h h' r r' hh, cNew_congr Wt Wb B h c h' c' r r' hh hc]

/-- Row r of a block's result is row r' of another's whenever the two mailboxes agree on those rows. -/
theorem out_congr {R' : Nat} (Wt Wb : Fin 256 → Fin 1024 → EReal) (B : Fin 1024 → EReal)
    (h c : (⟨3, ![R, 8, 256]⟩ : Shape).Idx → EReal) (h' c' : (⟨3, ![R', 8, 256]⟩ : Shape).Idx → EReal)
    (r : Fin R) (r' : Fin R') (hh : ∀ k q, h (ix3 r k q) = h' (ix3 r' k q)) (hc : ∀ k q, c (ix3 r k q) = c' (ix3 r' k q))
    (j : Fin 512) : out Wt Wb B h c (ix2 r j) = out Wt Wb B h' c' (ix2 r' j) := by
  rcases out_cases j with ⟨q, hq⟩ | ⟨q, hq⟩
  · rw [out_left Wt Wb B h c r q j hq, out_left Wt Wb B h' c' r' q j hq]
    exact hNew_congr Wt Wb B h c h' c' r r' hh hc q
  · rw [out_right Wt Wb B h c r q j hq, out_right Wt Wb B h' c' r' q j hq]
    exact cNew_congr Wt Wb B h c h' c' r r' hh hc q

/-! ## The fused weights, from the four parameter arrays -/

/-- Fused weight rows meeting hSum: gate column j reads row j of U_f, or row j − 256 of U_iou, at weight column k. -/
def wTop (wf : (⟨2, ![256, 512]⟩ : Shape).Idx → EReal) (wiou : (⟨2, ![768, 512]⟩ : Shape).Idx → EReal)
    (k : Fin 256) (j : Fin 1024) : EReal :=
  if hj : j.val < 256 then wf (ix2 ⟨j.val, hj⟩ ⟨k.val, by have := k.isLt; omega⟩)
  else wiou (ix2 ⟨j.val - 256, by have := j.isLt; omega⟩ ⟨k.val, by have := k.isLt; omega⟩)

/-- Fused weight rows meeting hMax: the same rows at weight column 256 + k. -/
def wBot (wf : (⟨2, ![256, 512]⟩ : Shape).Idx → EReal) (wiou : (⟨2, ![768, 512]⟩ : Shape).Idx → EReal)
    (k : Fin 256) (j : Fin 1024) : EReal :=
  if hj : j.val < 256 then wf (ix2 ⟨j.val, hj⟩ ⟨256 + k.val, by have := k.isLt; omega⟩)
  else wiou (ix2 ⟨j.val - 256, by have := j.isLt; omega⟩ ⟨256 + k.val, by have := k.isLt; omega⟩)

/-- The fused bias: entry j of b_f, or entry j − 256 of b_iou. -/
def bFused (bf : (⟨1, ![256]⟩ : Shape).Idx → EReal) (biou : (⟨2, ![1, 768]⟩ : Shape).Idx → EReal) (j : Fin 1024) : EReal :=
  if hj : j.val < 256 then bf (ix1 ⟨j.val, hj⟩)
  else biou (ix2 (0 : Fin 1) ⟨j.val - 256, by have := j.isLt; omega⟩)

/-- The cell on the whole batch: the common value of the two programs. -/
def cell (h c : (⟨3, ![32768, 8, 256]⟩ : Shape).Idx → EReal) (wiou : (⟨2, ![768, 512]⟩ : Shape).Idx → EReal)
    (biou : (⟨2, ![1, 768]⟩ : Shape).Idx → EReal) (wf : (⟨2, ![256, 512]⟩ : Shape).Idx → EReal)
    (bf : (⟨1, ![256]⟩ : Shape).Idx → EReal) : (⟨2, ![32768, 512]⟩ : Shape).Idx → EReal :=
  out (wTop wf wiou) (wBot wf wiou) (bFused bf biou) h c

/-! The fused weights at a forget-gate column and at an input, output or update column. -/

theorem wTop_f (wf : (⟨2, ![256, 512]⟩ : Shape).Idx → EReal) (wiou : (⟨2, ![768, 512]⟩ : Shape).Idx → EReal)
    (k q : Fin 256) (kk : Fin 512) (hk : kk.val = k.val) : wTop wf wiou k (gcol 0 (by decide) q) = wf (ix2 q kk) := by
  have hq : (gcol 0 (by decide) q).val < 256 := by show 0 + q.val < 256; have := q.isLt; omega
  unfold wTop; rw [dif_pos hq]
  exact congrArg wf (congrArg₂ ix2 (Fin.ext (by show 0 + q.val = q.val; omega)) (Fin.ext hk.symm))

theorem wBot_f (wf : (⟨2, ![256, 512]⟩ : Shape).Idx → EReal) (wiou : (⟨2, ![768, 512]⟩ : Shape).Idx → EReal)
    (k q : Fin 256) (kk : Fin 512) (hk : kk.val = 256 + k.val) : wBot wf wiou k (gcol 0 (by decide) q) = wf (ix2 q kk) := by
  have hq : (gcol 0 (by decide) q).val < 256 := by show 0 + q.val < 256; have := q.isLt; omega
  unfold wBot; rw [dif_pos hq]
  exact congrArg wf (congrArg₂ ix2 (Fin.ext (by show 0 + q.val = q.val; omega)) (Fin.ext hk.symm))

theorem bFused_f (bf : (⟨1, ![256]⟩ : Shape).Idx → EReal) (biou : (⟨2, ![1, 768]⟩ : Shape).Idx → EReal) (q : Fin 256) :
    bFused bf biou (gcol 0 (by decide) q) = bf (ix1 q) := by
  have hq : (gcol 0 (by decide) q).val < 256 := by show 0 + q.val < 256; have := q.isLt; omega
  unfold bFused; rw [dif_pos hq]
  exact congrArg bf (congrArg ix1 (Fin.ext (by show 0 + q.val = q.val; omega)))

theorem wTop_g (wf : (⟨2, ![256, 512]⟩ : Shape).Idx → EReal) (wiou : (⟨2, ![768, 512]⟩ : Shape).Idx → EReal)
    (o : Nat) (ho : o + 256 ≤ 1024) (ho' : 256 ≤ o) (k q : Fin 256) (g : Fin 768) (hg : g.val = o - 256 + q.val)
    (kk : Fin 512) (hk : kk.val = k.val) : wTop wf wiou k (gcol o ho q) = wiou (ix2 g kk) := by
  have hq : ¬ (gcol o ho q).val < 256 := by show ¬ o + q.val < 256; omega
  unfold wTop; rw [dif_neg hq]
  exact congrArg wiou (congrArg₂ ix2 (Fin.ext (by show o + q.val - 256 = g.val; omega)) (Fin.ext hk.symm))

theorem wBot_g (wf : (⟨2, ![256, 512]⟩ : Shape).Idx → EReal) (wiou : (⟨2, ![768, 512]⟩ : Shape).Idx → EReal)
    (o : Nat) (ho : o + 256 ≤ 1024) (ho' : 256 ≤ o) (k q : Fin 256) (g : Fin 768) (hg : g.val = o - 256 + q.val)
    (kk : Fin 512) (hk : kk.val = 256 + k.val) : wBot wf wiou k (gcol o ho q) = wiou (ix2 g kk) := by
  have hq : ¬ (gcol o ho q).val < 256 := by show ¬ o + q.val < 256; omega
  unfold wBot; rw [dif_neg hq]
  exact congrArg wiou (congrArg₂ ix2 (Fin.ext (by show o + q.val - 256 = g.val; omega)) (Fin.ext hk.symm))

theorem bFused_g (bf : (⟨1, ![256]⟩ : Shape).Idx → EReal) (biou : (⟨2, ![1, 768]⟩ : Shape).Idx → EReal)
    (o : Nat) (ho : o + 256 ≤ 1024) (ho' : 256 ≤ o) (q : Fin 256) (g : Fin 768) (hg : g.val = o - 256 + q.val) :
    bFused bf biou (gcol o ho q) = biou (ix2 (0 : Fin 1) g) := by
  have hq : ¬ (gcol o ho q).val < 256 := by show ¬ o + q.val < 256; omega
  unfold bFused; rw [dif_neg hq]
  exact congrArg biou (congrArg (ix2 (0 : Fin 1)) (Fin.ext (by show o + q.val - 256 = g.val; omega)))

/-! ## The two laws -/

/-- A sum over 512 indices is the sum over the first 256 plus the sum over the last 256. -/
theorem sum_halves {M : Type} [AddCommMonoid M] (f : Fin 512 → M) :
    ∑ k : Fin 512, f k = ∑ k : Fin 256, f ⟨k.val, by have := k.isLt; omega⟩ + ∑ k : Fin 256, f ⟨256 + k.val, by have := k.isLt; omega⟩ := by
  have e := Fin.sum_univ_add (M := M) (a := 256) (b := 256) f
  rw [e]
  rfl

/-- The logistic function's value is a non-negative extended real other than +∞. -/
theorem logistic_nonneg_ne_top (x : EReal) : 0 ≤ Ideal.logistic x ∧ Ideal.logistic x ≠ ⊤ := by
  induction x using EReal.rec with
  | bot => rw [Ideal.logistic_bot]; exact ⟨le_refl _, EReal.zero_ne_top⟩
  | coe r =>
    rw [Ideal.logistic_coe]
    exact ⟨EReal.coe_nonneg.mpr (inv_nonneg.mpr (by positivity)), EReal.coe_ne_top _⟩
  | top => rw [Ideal.logistic_top]; exact ⟨zero_le_one, by rw [← EReal.coe_one]; exact EReal.coe_ne_top 1⟩

/-- A non-negative finite factor distributes over a finite sum of extended reals. -/
theorem mul_sum_of_nonneg_ne_top {ι : Type} (s : Finset ι) (a : EReal) (h0 : 0 ≤ a) (ht : a ≠ ⊤) (f : ι → EReal) :
    a * ∑ k ∈ s, f k = ∑ k ∈ s, a * f k := by
  classical
  induction s using Finset.induction_on with
  | empty => rw [Finset.sum_empty, Finset.sum_empty, mul_zero]
  | insert i s hi ih =>
    rw [Finset.sum_insert hi, Finset.sum_insert hi, EReal.left_distrib_of_nonneg_of_ne_top h0 ht, ih]

/-- A gate value times the children's sum is the sum of the gate value times each child. -/
theorem logistic_mul_sum (x : EReal) (f : Fin 8 → EReal) :
    Ideal.logistic x * ∑ k : Fin 8, f k = ∑ k : Fin 8, Ideal.logistic x * f k :=
  mul_sum_of_nonneg_ne_top Finset.univ _ (logistic_nonneg_ne_top x).1 (logistic_nonneg_ne_top x).2 f

end Cert.TreeCell

end
-- ==== Proof.LibCols.lean ====
/-
  Two matrices set side by side, read at an index.

  For an a × b₁ matrix x₁ and an a × b₂ matrix x₂ concatenated along the column axis into an a × b matrix, the entry
  at (r, j) with j < b₁ is x₁(r, j), and the entry at (r, b₁ + q) is x₂(r, q) — generic in the four extents.
-/
import Idealize.ShloMosaic.Lib.Pipeline.Value
import Idealize.ShloMosaic.Lib.ValueIdx

namespace Cert.LibCols

open Idealize.ShloMosaic Idealize.ShloMosaic.ValueIdx

variable {α : Type} {a b₁ b₂ b : Nat}

/-- A column in the first piece's range reads the first piece at the same coordinates. -/
theorem concat_cols_left (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (r : Fin a) (j : Fin b) (q : Fin b₁)
    (hq : q.val = j.val) :
    concatenate ⟨2, ![a, b]⟩ 1 [⟨⟨2, ![a, b₁]⟩, x₁⟩, ⟨⟨2, ![a, b₂]⟩, x₂⟩] h (ix2 r j) = x₁ (ix2 r q) :=
  concatenate_pair_apply_left 1 x₁ x₂ h (ix2 r j) rfl (ix2 r q) fun c => match c with
    | ⟨0, _⟩ => rfl
    | ⟨1, _⟩ => hq

/-- A column past the first piece's range reads the second piece, the first piece's width less. -/
theorem concat_cols_right (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, b]⟩ 1) (r : Fin a) (j : Fin b) (q : Fin b₂)
    (hq : q.val + b₁ = j.val) :
    concatenate ⟨2, ![a, b]⟩ 1 [⟨⟨2, ![a, b₁]⟩, x₁⟩, ⟨⟨2, ![a, b₂]⟩, x₂⟩] h (ix2 r j) = x₂ (ix2 r q) :=
  concatenate_pair_apply_right 1 x₁ x₂ h (ix2 r j) rfl rfl (ix2 r q)
    (fun c hc => match c, hc with
      | ⟨0, _⟩, _ => rfl
      | ⟨1, _⟩, hc => absurd rfl hc)
    hq

end Cert.LibCols
-- ==== Proof.RefValue.lean ====
/-
  The reference's result is the cell.

  The reference reduces the hidden mailbox along the children axis on the host (a sum from 0 and a maximum from −∞), sets the
  two reductions side by side into one 512-wide row, and multiplies that row by the transposed U_f and U_iou: each
  pre-activation is a sum over 512 contraction indices, which splits into the sum over the first 256 (the children's sum
  against weight columns [0,256)) and the sum over the last 256 (the children's maximum against weight columns
  [256,512)) — the specification's two half sums. It spells the logistic function out as 1 / (1 + e^(−x)), which is the
  extended-real logistic function by definition. And it aggregates the memory mailbox as Σ_k f·c_k where the
  specification has f·Σ_k c_k: equal because the gate value f is a non-negative real (the one law of this certificate
  that is not mere re-association).
-/
import proofs.«122917_j29841432773236_2_alg».proof.Proof.RefRead
import proofs.«122917_j29841432773236_2_alg».proof.Proof.Spec
import proofs.«122917_j29841432773236_2_alg».proof.Proof.LibCols
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx Cert.TreeCell

variable (x0 x1 : FVec Ideal S32768x8x256 .f32) (x2 : FVec Ideal S768x512 .f32) (x3 : FVec Ideal S1x768 .f32)
  (x4 : FVec Ideal S256x512 .f32) (x5 : FVec Ideal S256 .f32)

/-! ## The mailbox reductions on the host -/

/-- The host's sum over the children axis, from 0, at (n, q). -/
theorem host_sum (x : FVec Ideal S32768x8x256 .f32) (n : Fin 32768) (q : Fin 256) :
    val_main_v0 (F := Ideal) x (ix2 n q) = kSum x n q := by
  rw [val_main_v0_apply, val_main_cst_apply]
  show Ideal.ofBits .f32 0x00000000#32 + _ = _
  rw [Ideal.ofBits_zero_f32, zero_add]
  exact Finset.sum_congr rfl fun k _ => congrArg x (funext fun a => Fin.ext (by match a with | ⟨0, _⟩ => rfl | ⟨1, _⟩ => rfl | ⟨2, _⟩ => rfl))

/-- The host's maximum over the children axis, from −∞, at (n, q). -/
theorem host_max (x : FVec Ideal S32768x8x256 .f32) (n : Fin 32768) (q : Fin 256) :
    val_main_v1 (F := Ideal) x (ix2 n q) = kMax x n q := by
  unfold val_main_v1
  refine (Host.reduce_eq_fold_single FloatOps.maximumf x _ reducesTo_S32768x8x256_S32768x256_d1
    (by decide : S32768x8x256.Reduces [1] S32768x256) h_S_ (ix2 n q)).trans ?_
  exact congrArg (fun f => (Finset.univ : Finset (Fin 8)).fold max (Ideal.ofBits .f32 0xFF800000#32) f)
    (funext fun k => congrArg x (funext fun a => Fin.ext (by match a with | ⟨0, _⟩ => rfl | ⟨1, _⟩ => rfl | ⟨2, _⟩ => rfl)))

/-- The 512-wide row: its first 256 entries are the children's sums. -/
theorem row_left (x : FVec Ideal S32768x8x256 .f32) (n : Fin 32768) (k : Fin 512) (p : Fin 256) (hk : k.val = p.val) :
    val_main_v2 (F := Ideal) x (ix2 n k) = kSum x n p := by
  unfold val_main_v2
  exact (Cert.LibCols.concat_cols_left _ _ concatenates_S32768x256_S32768x256_S32768x512_d1 n k p hk.symm).trans (host_sum x n p)

/-- The 512-wide row: its last 256 entries are the children's maxima. -/
theorem row_right (x : FVec Ideal S32768x8x256 .f32) (n : Fin 32768) (k : Fin 512) (p : Fin 256) (hk : k.val = 256 + p.val) :
    val_main_v2 (F := Ideal) x (ix2 n k) = kMax x n p := by
  unfold val_main_v2
  exact (Cert.LibCols.concat_cols_right _ _ concatenates_S32768x256_S32768x256_S32768x512_d1 n k p (by omega)).trans (host_max x n p)

/-- The row against a weight column: the sum over 512 contraction indices is the children's sums against the first 256
    weights plus the children's maxima against the last 256. -/
theorem row_dot (x : FVec Ideal S32768x8x256 .f32) (n : Fin 32768) (w : Fin 512 → EReal) :
    ∑ k : Fin 512, val_main_v2 (F := Ideal) x (ix2 n k) * w k
      = ∑ p : Fin 256, kSum x n p * w ⟨p.val, by have := p.isLt; omega⟩
        + ∑ p : Fin 256, kMax x n p * w ⟨256 + p.val, by have := p.isLt; omega⟩ :=
  (sum_halves fun k => val_main_v2 (F := Ideal) x (ix2 n k) * w k).trans
    (congrArg₂ (· + ·)
      (Finset.sum_congr rfl fun p _ => congrArg (· * w ⟨p.val, by have := p.isLt; omega⟩) (row_left x n _ p rfl))
      (Finset.sum_congr rfl fun p _ => congrArg (· * w ⟨256 + p.val, by have := p.isLt; omega⟩) (row_right x n _ p rfl)))

/-! ## The pre-activations -/

/-- The forget gate's pre-activation: the row against row q of U_f, plus b_f(q). -/
theorem forget_logit (n : Fin 32768) (q : Fin 256) :
    val_main_v7 (F := Ideal) x0 x4 x5 (ix2 n q)
      = logit (wTop x4 x2) (wBot x4 x2) (bFused x5 x3) x0 n (gcol 0 (by decide) q) := by
  rw [val_main_v7_apply, val_main_v4_apply, val_main_v6_apply, val_main_v5_apply]
  unfold logit
  show _ + _ = _ + _
  refine congrArg₂ (· + ·) ?_ ?_
  · refine (Finset.sum_congr rfl fun k _ => ?_).trans ((row_dot x0 n fun k => x4 (ix2 q k)).trans ?_)
    · rw [val_main_v3_apply]
      exact congrArg₂ (· * ·)
        (congrArg (val_main_v2 (F := Ideal) x0) (funext fun a => Fin.ext (by match a with | ⟨0, _⟩ => rfl | ⟨1, _⟩ => rfl)))
        (congrArg x4 (funext fun a => Fin.ext (by match a with | ⟨0, _⟩ => rfl | ⟨1, _⟩ => rfl)))
    · refine congrArg₂ (· + ·) (Finset.sum_congr rfl fun p _ => ?_) (Finset.sum_congr rfl fun p _ => ?_)
      · rw [wTop_f x4 x2 p q ⟨p.val, by have := p.isLt; omega⟩ rfl]
      · rw [wBot_f x4 x2 p q ⟨256 + p.val, by have := p.isLt; omega⟩ rfl]
  · rw [bFused_f]
    exact congrArg x5 (funext fun a => Fin.ext (by match a with | ⟨0, _⟩ => rfl))

/-- An input, output or update pre-activation: the row against row g of U_iou, plus b_iou(g); row g = o − 256 + q is
    fused gate column o + q. -/
theorem iou_logit (n : Fin 32768) (g : Fin 768) (o : Nat) (ho : o + 256 ≤ 1024) (ho' : 256 ≤ o) (q : Fin 256)
    (hg : g.val = o - 256 + q.val) :
    val_main_v21 (F := Ideal) x0 x2 x3 (ix2 n g)
      = logit (wTop x4 x2) (wBot x4 x2) (bFused x5 x3) x0 n (gcol o ho q) := by
  rw [val_main_v21_apply, val_main_v19_apply, val_main_v20_apply]
  unfold logit
  show _ + _ = _ + _
  refine congrArg₂ (· + ·) ?_ ?_
  · refine (Finset.sum_congr rfl fun k _ => ?_).trans ((row_dot x0 n fun k => x2 (ix2 g k)).trans ?_)
    · rw [val_main_v18_apply]
      exact congrArg₂ (· * ·)
        (congrArg (val_main_v2 (F := Ideal) x0) (funext fun a => Fin.ext (by match a with | ⟨0, _⟩ => rfl | ⟨1, _⟩ => rfl)))
        (congrArg x2 (funext fun a => Fin.ext (by match a with | ⟨0, _⟩ => rfl | ⟨1, _⟩ => rfl)))
    · refine congrArg₂ (· + ·) (Finset.sum_congr rfl fun p _ => ?_) (Finset.sum_congr rfl fun p _ => ?_)
      · rw [wTop_g x4 x2 o ho ho' p q g hg ⟨p.val, by have := p.isLt; omega⟩ rfl]
      · rw [wBot_g x4 x2 o ho ho' p q g hg ⟨256 + p.val, by have := p.isLt; omega⟩ rfl]
  · rw [bFused_g x5 x3 o ho ho' q g hg]
    exact congrArg x3 (funext fun a => Fin.ext (by match a with | ⟨0, _⟩ => rfl | ⟨1, _⟩ => rfl))

/-! ## The gates -/

/-- The reference's spelling of the logistic function — 1.0 / (1.0 + exp(−x)) in host operations — is the logistic function. -/
theorem host_logistic (a : EReal) :
    FloatOps.hostDivf (F := Ideal) (φ := .f32) (FloatOps.ofBits .f32 0x3F800000#32)
      (FloatOps.addf (FloatOps.ofBits .f32 0x3F800000#32) (FloatOps.hostUnary .exp (FloatOps.hostNegf a))) = Ideal.logistic a := by
  show Ideal.div (Ideal.ofBits .f32 0x3F800000#32) (Ideal.ofBits .f32 0x3F800000#32 + Ideal.exp (-a)) = _
  rw [Ideal.ofBits_one_f32]
  rfl

/-- The forget gate at (n, q). -/
theorem forget_gate (n : Fin 32768) (q : Fin 256) :
    val_main_v13 (F := Ideal) x0 x4 x5 (ix2 n q)
      = Ideal.logistic (logit (wTop x4 x2) (wBot x4 x2) (bFused x5 x3) x0 n (gcol 0 (by decide) q)) := by
  rw [val_main_v13_apply, val_main_v12_apply, val_main_cst_2_apply, val_main_v11_apply, val_main_v10_apply, val_main_cst_1_apply,
    val_main_v9_apply, val_main_v8_apply, forget_logit x0 x2 x3 x4 x5 n q]
  exact host_logistic _

/-- The input gate at (n, q). -/
theorem input_gate (n : Fin 32768) (q : Fin 256) :
    val_main_v30 (F := Ideal) x0 x2 x3 (ix2 n q)
      = Ideal.logistic (logit (wTop x4 x2) (wBot x4 x2) (bFused x5 x3) x0 n (gcol 256 (by decide) q)) := by
  rw [val_main_v30_apply, val_main_v29_apply, val_main_cst_5_apply, val_main_v28_apply, val_main_v27_apply, val_main_cst_4_apply,
    val_main_v26_apply, val_main_v25_apply, val_main_v22_apply,
    show idx_main_v22 (ix2 n q) = ix2 n (⟨q.val, by have := q.isLt; omega⟩ : Fin 768) from funext fun a => Fin.ext (by match a with | ⟨0, _⟩ => rfl | ⟨1, _⟩ => rfl),
    iou_logit x0 x2 x3 x4 x5 n (⟨q.val, by have := q.isLt; omega⟩ : Fin 768) 256 (by decide) (by decide) q (by show q.val = 256 - 256 + q.val; omega)]
  exact host_logistic _

/-- The output gate at (n, q). -/
theorem output_gate (n : Fin 32768) (q : Fin 256) :
    val_main_v39 (F := Ideal) x0 x2 x3 (ix2 n q)
      = Ideal.logistic (logit (wTop x4 x2) (wBot x4 x2) (bFused x5 x3) x0 n (gcol 512 (by decide) q)) := by
  rw [val_main_v39_apply, val_main_v38_apply, val_main_cst_7_apply, val_main_v37_apply, val_main_v36_apply, val_main_cst_6_apply,
    val_main_v35_apply, val_main_v34_apply, val_main_v23_apply,
    show idx_main_v23 (ix2 n q) = ix2 n (⟨256 + q.val, by have := q.isLt; omega⟩ : Fin 768) from funext fun a => Fin.ext (by match a with | ⟨0, _⟩ => rfl | ⟨1, _⟩ => rfl),
    iou_logit x0 x2 x3 x4 x5 n (⟨256 + q.val, by have := q.isLt; omega⟩ : Fin 768) 512 (by decide) (by decide) q (by show 256 + q.val = 512 - 256 + q.val; omega)]
  exact host_logistic _

/-- The update value at (n, q). -/
theorem update_value (n : Fin 32768) (q : Fin 256) :
    val_main_v31 (F := Ideal) x0 x2 x3 (ix2 n q)
      = Ideal.tanh (logit (wTop x4 x2) (wBot x4 x2) (bFused x5 x3) x0 n (gcol 768 (by decide) q)) := by
  rw [val_main_v31_apply, val_main_v24_apply,
    show idx_main_v24 (ix2 n q) = ix2 n (⟨512 + q.val, by have := q.isLt; omega⟩ : Fin 768) from funext fun a => Fin.ext (by match a with | ⟨0, _⟩ => rfl | ⟨1, _⟩ => rfl),
    iou_logit x0 x2 x3 x4 x5 n (⟨512 + q.val, by have := q.isLt; omega⟩ : Fin 768) 768 (by decide) (by decide) q (by show 512 + q.val = 768 - 256 + q.val; omega)]
  rfl

/-- The memory aggregate: Σ_k f·c_k, the forget gate broadcast over the children, is f·Σ_k c_k. -/
theorem memory_aggregate (n : Fin 32768) (q : Fin 256) :
    val_main_v17 (F := Ideal) x0 x1 x4 x5 (ix2 n q)
      = Ideal.logistic (logit (wTop x4 x2) (wBot x4 x2) (bFused x5 x3) x0 n (gcol 0 (by decide) q)) * kSum x1 n q := by
  rw [val_main_v17_apply, val_main_cst_3_apply]
  show Ideal.ofBits .f32 0x00000000#32 + _ = _
  rw [Ideal.ofBits_zero_f32, zero_add]
  unfold kSum
  rw [logistic_mul_sum]
  refine Finset.sum_congr rfl fun k _ => ?_
  rw [val_main_v16_apply, val_main_v15_apply, val_main_v14_apply,
    show idx_main_v14 (idx_main_v15 (idx_main_v17 (ix2 n q) k)) = ix2 n q from funext fun a => Fin.ext (by match a with | ⟨0, _⟩ => rfl | ⟨1, _⟩ => rfl),
    forget_gate x0 x2 x3 x4 x5 n q]
  exact congrArg (_ * ·) (congrArg x1 (funext fun a => Fin.ext (by match a with | ⟨0, _⟩ => rfl | ⟨1, _⟩ => rfl | ⟨2, _⟩ => rfl)))

/-- The new memory at (n, q). -/
theorem new_memory (n : Fin 32768) (q : Fin 256) :
    val_main_v33 (F := Ideal) x0 x1 x2 x3 x4 x5 (ix2 n q)
      = cNew (wTop x4 x2) (wBot x4 x2) (bFused x5 x3) x0 x1 n q := by
  rw [val_main_v33_apply, val_main_v32_apply, input_gate x0 x2 x3 x4 x5 n q, update_value x0 x2 x3 x4 x5 n q,
    memory_aggregate x0 x1 x2 x3 x4 x5 n q]
  rfl

/-- The new hidden state at (n, q). -/
theorem new_hidden (n : Fin 32768) (q : Fin 256) :
    val_main_v41 (F := Ideal) x0 x1 x2 x3 x4 x5 (ix2 n q)
      = hNew (wTop x4 x2) (wBot x4 x2) (bFused x5 x3) x0 x1 n q := by
  rw [val_main_v41_apply, val_main_v40_apply, output_gate x0 x2 x3 x4 x5 n q, new_memory x0 x1 x2 x3 x4 x5 n q]
  rfl

/-! ## The result -/

/-- The reference's result array is the cell of its six arguments. -/
theorem result_eq : val_main_v42 (F := Ideal) x0 x1 x2 x3 x4 x5 = cell x0 x1 x2 x3 x4 x5 := by
  funext i
  obtain ⟨n, j, rfl⟩ : ∃ (n : Fin 32768) (j : Fin 512), i = ix2 n j := ⟨i 0, i 1, eq_ix2 i⟩
  unfold val_main_v42 cell
  rcases out_cases j with ⟨q, hq⟩ | ⟨q, hq⟩
  · rw [out_left _ _ _ _ _ n q j hq]
    exact (Cert.LibCols.concat_cols_left _ _ concatenates_S32768x256_S32768x256_S32768x512_d1 n j q hq.symm).trans
      (new_hidden x0 x1 x2 x3 x4 x5 n q)
  · rw [out_right _ _ _ _ _ n q j hq]
    exact (Cert.LibCols.concat_cols_right _ _ concatenates_S32768x256_S32768x256_S32768x512_d1 n j q (by omega)).trans
      (new_memory x0 x1 x2 x3 x4 x5 n q)

end Cert.ReferenceIdeal.RefValue

end
-- ==== Proof.LibDot.lean ====
/-
  A matrix product read at an index, on the extended reals.

  For a rows × contraction by contraction × columns product — the dimension numbers that contract the left operand's
  second axis with the right operand's first, with no batch axis — the entry at (i, j) of the host's `dot_general`,
  and of a `tpu.matmul` accumulated into the zero splat, is the plain sum over the contraction coordinate k of
  l (i, k) · r (k, j). The sum over the product's own contraction index is re-indexed through the bijection between a
  one-axis contraction index and its coordinate; the operand indices are computed from the dimension numbers.
  Nothing here needs finiteness: only that the sum is re-indexed.
-/
import Idealize.ShloMosaic.Lib.ValueIdx
import Idealize.ShloMosaic.PureOps.Ideal.Laws

noncomputable section

namespace Cert.LibDot

open Idealize.ShloMosaic Idealize.ShloMosaic.ValueIdx

variable {M K N : Nat}

/-- The contraction of row `y 0` of `l` with column `y 1` of `r`: the sum over the product's contraction index is
    the sum over the one contracted coordinate. -/
theorem sum_plain (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (y : (⟨2, ![M, N]⟩ : Shape).Idx) :
    ∑ q : d.contr.Idx, l (d.lhsIdx y q) * r (d.rhsIdx y q) = ∑ k : Fin K, l (ix2 (y 0) k) * r (ix2 k (y 1)) := by
  obtain ⟨lc, rc, ln, rn, lb, rb, wf⟩ := d
  dsimp only at hlc hrc hln hrn hlb hrb
  subst hlc hrc hln hrn hlb hrb
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 (y 0) k := funext fun a => Fin.ext (by
    match a with
    | ⟨0, _⟩ =>
      unfold DotDims.lhsIdx
      rw [dif_neg (by simp), dif_pos (by simp)]
      rfl
    | ⟨1, _⟩ => exact (DotDims.lhsIdx_val_of_single _ rfl y _).trans hk)
  have er : DotDims.rhsIdx (⟨[1], [0], [0], [1], [], [], wf⟩ : DotDims ⟨2, ![M, K]⟩ ⟨2, ![K, N]⟩ ⟨2, ![M, N]⟩) y
      ((contrEquiv1 (⟨[1], [0], [0], [1], [], [], wf⟩ : DotDims ⟨2, ![M, K]⟩ ⟨2, ![K, N]⟩ ⟨2, ![M, N]⟩) K rfl rfl).symm k)
      = ix2 k (y 1) := funext fun a => Fin.ext (by
    match a with
    | ⟨0, _⟩ => exact (DotDims.rhsIdx_val_of_single _ rfl y _).trans hk
    | ⟨1, _⟩ =>
      unfold DotDims.rhsIdx
      rw [dif_neg (by simp), dif_pos (by simp)]
      rfl)
  rw [el, er]
  rfl

variable {φ₁ φ₂ : FTy}

/-- The host's `dot_general` of those dimension numbers, at an index: the sum over the contracted coordinate. -/
theorem dotGeneral_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (l : FVec Ideal ⟨2, ![M, K]⟩ φ₁) (r : FVec Ideal ⟨2, ![K, N]⟩ φ₂) (y : (⟨2, ![M, N]⟩ : Shape).Idx) :
    FloatOps.dotGeneral d prec sched l r y = ∑ k : Fin K, l (ix2 (y 0) k) * r (ix2 k (y 1)) := by
  rw [Ideal.dotGeneral_apply]
  exact sum_plain d hlc hrc hln hrn hlb hrb l r y

/-- A `tpu.matmul` of those dimension numbers into the zero accumulator, at an index: the same sum. -/
theorem matmul_zero_plain_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (l : FVec Ideal ⟨2, ![M, K]⟩ φ₁) (r : FVec Ideal ⟨2, ![K, N]⟩ φ₂) (y : (⟨2, ![M, N]⟩ : Shape).Idx) :
    FloatOps.matmul d prec l r (constant ⟨2, ![M, N]⟩ .f32 0x00000000#32) y
      = ∑ k : Fin K, l (ix2 (y 0) k) * r (ix2 k (y 1)) := by
  rw [Ideal.matmul_constant_zero_apply]
  exact sum_plain d hlc hrc hln hrn hlb hrb l r y

end Cert.LibDot

end
-- ==== Proof.Payload.lean ====
/-
  The kernel body's stored value is the cell on the block's 512 rows.

  The body reduces the two mailbox blocks along the children axis (sum and maximum of h, sum of c), multiplies the
  sum and the maximum by the two halves of the fused weight (two matrix products into zero accumulators, added), adds
  the fused bias row to every row, cuts the 1024 pre-activations into the forget, input, output and update gates,
  and stores [σ(o)·tanh(cNew) | cNew] with cNew = σ(i)·tanh(u) + σ(f)·cSum. Read at row r and column j this is, term
  for term, the specification's result on a block of 512 rows: a change of float format is the identity on extended
  reals, a matrix product into the zero accumulator is the plain sum over the contraction, the identity shape casts
  drop, the bias broadcast reads its one row, and each slice shifts the column by its offset.
-/
import proofs.«122917_j29841432773236_2_alg».proof.Proof.Gen.KernelIdeal.Skeleton
import proofs.«122917_j29841432773236_2_alg».proof.Proof.Spec
import proofs.«122917_j29841432773236_2_alg».proof.Proof.LibDot
import proofs.«122917_j29841432773236_2_alg».proof.Proof.LibCols
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.TreeCell

/-! ## The two stages of the body -/

/-- The 1024 gate pre-activations of the block's rows: the body's operations up to the bias add. -/
def logits (v0 : FVec Ideal S512x8x256 .f32) (v7 v10 : FVec Ideal S256x1024 .bf16) (v14 : FVec Ideal S1x1024 .f32) :
    FVec Ideal S512x1024 .f32 :=
  addf (addf
      (matmul dot_S512x256_S256x1024_S512x1024_1_0_0_1_n_n none
        (truncf .bf16 (multiReduction .add [1] S512x256 v0 0x00000000#32 reduces_S512x8x256_S512x256 (.inl rfl) rfl) bitsLt_bf16_f32)
        (shapeCast S256x1024 v7 shapeCasts_S256x1024_S256x1024) (constant S512x1024 .f32 0x00000000#32))
      (matmul dot_S512x256_S256x1024_S512x1024_1_0_0_1_n_n none
        (truncf .bf16 (multiReduction .maximumf [1] S512x256 v0 0xFF800000#32 reduces_S512x8x256_S512x256 (.inl rfl) rfl) bitsLt_bf16_f32)
        (shapeCast S256x1024 v10 shapeCasts_S256x1024_S256x1024) (constant S512x1024 .f32 0x00000000#32)))
    (broadcastTo S512x1024 (shapeCast S1x1024 v14 shapeCasts_S1x1024_S1x1024) broadcasts_S1x1024_S512x1024)

/-- The gates applied: the body's operations after the bias add, over the pre-activations L and the children's memory sum C. -/
def gates (L : FVec Ideal S512x1024 .f32) (C : FVec Ideal S512x256 .f32) : FVec Ideal S512x512 .f32 :=
  have v18 : FVec Ideal S512x256 .f32 := extractStridedSlice S512x256 ![0, 0] L slices_S512x1024_o0_0_S512x256
  have v19 : FVec Ideal S512x768 .f32 := extractStridedSlice S512x768 ![0, 256] L slices_S512x1024_o0_256_S512x768
  have v20 : FVec Ideal S512x256 .f32 := logistic v18
  have v21 : FVec Ideal S512x256 .f32 := mulf v20 C
  have v22 : FVec Ideal S512x256 .f32 := extractStridedSlice S512x256 ![0, 0] v19 slices_S512x768_o0_0_S512x256
  have v23 : FVec Ideal S512x256 .f32 := extractStridedSlice S512x256 ![0, 256] v19 slices_S512x768_o0_256_S512x256
  have v24 : FVec Ideal S512x256 .f32 := extractStridedSlice S512x256 ![0, 512] v19 slices_S512x768_o0_512_S512x256
  have v25 : FVec Ideal S512x256 .f32 := logistic v22
  have v26 : FVec Ideal S512x256 .f32 := tanh v24
  have v27 : FVec Ideal S512x256 .f32 := mulf v25 v26
  have v28 : FVec Ideal S512x256 .f32 := addf v27 v21
  have v29 : FVec Ideal S512x256 .f32 := logistic v23
  have v30 : FVec Ideal S512x256 .f32 := tanh v28
  have v31 : FVec Ideal S512x256 .f32 := mulf v29 v30
  concatenate S512x512 1 [⟨S512x256, v31⟩, ⟨S512x256, v28⟩] concatenates_S512x256_S512x256_S512x512_d1

/-- The body's stored value is the gates over the pre-activations and the children's memory sum. -/
theorem pay_stages (v0 v1 : FVec Ideal S512x8x256 .f32) (v7 v10 : FVec Ideal S256x1024 .bf16) (v14 : FVec Ideal S1x1024 .f32) :
    k0_pay1 (F := Ideal) v0 v1 v7 v10 v14
      = gates (logits v0 v7 v10 v14)
          (multiReduction .add [1] S512x256 v1 0x00000000#32 reduces_S512x8x256_S512x256 (.inl rfl) rfl) := rfl

/-! ## The children's sum and maximum at an index -/

/-- The reduced index (r, q) with the child coordinate k put back is (r, k, q). -/
theorem lift_child (r : Fin 512) (q : Fin 256) (k : Fin (S512x8x256.size 1)) :
    reduces_S512x8x256_S512x256.lift (ix2 r q) k = ix3 r (⟨k.val, k.isLt⟩ : Fin 8) q :=
  funext fun a => Fin.ext (by match a with | ⟨0, _⟩ => rfl | ⟨1, _⟩ => rfl | ⟨2, _⟩ => rfl)

/-- The sum over the children axis at (r, q) is the sum of the eight children's entries. -/
theorem sum_children (x : FVec Ideal S512x8x256 .f32) (hφ : FKind.Formats .f32)
    (hacc : (0x00000000#32 : BitVec 32) = FKind.add.neutral .f32 hφ) (r : Fin 512) (q : Fin 256) :
    multiReduction .add [1] S512x256 x 0x00000000#32 reduces_S512x8x256_S512x256 hφ hacc (ix2 r q) = kSum x r q :=
  (Ideal.multiReduction_add_single x 0x00000000#32 reduces_S512x8x256_S512x256 hφ hacc (ix2 r q)).trans
    (Finset.sum_congr rfl fun k _ => congrArg x (lift_child r q k))

/-- The maximum over the children axis at (r, q) is the maximum, from −∞, of the eight children's entries. -/
theorem max_children (x : FVec Ideal S512x8x256 .f32) (hφ : FKind.Formats .f32)
    (hacc : (0xFF800000#32 : BitVec 32) = FKind.maximumf.neutral .f32 hφ) (r : Fin 512) (q : Fin 256) :
    multiReduction .maximumf [1] S512x256 x 0xFF800000#32 reduces_S512x8x256_S512x256 hφ hacc (ix2 r q) = kMax x r q :=
  (Ideal.multiReduction_maximumf_single x 0xFF800000#32 reduces_S512x8x256_S512x256 hφ hacc (ix2 r q)).trans
    (congrArg (fun f => (Finset.univ : Finset (Fin 8)).fold max (Ideal.ofBits .f32 0xFF800000#32) f)
      (funext fun k => congrArg x (lift_child r q k)))

/-! ## The pre-activations at an index -/

/-- One of the two products: a reduced block cast to bf16 times a weight half, into the zero accumulator, at (r, j),
    is the sum over the 256 contraction coordinates of the reduced entry times the weight entry. -/
theorem product_apply (a : FVec Ideal S512x256 .f32) (w : FVec Ideal S256x1024 .bf16) (r : Fin 512) (j : Fin 1024) :
    matmul dot_S512x256_S256x1024_S512x1024_1_0_0_1_n_n none (truncf .bf16 a bitsLt_bf16_f32)
        (shapeCast S256x1024 w shapeCasts_S256x1024_S256x1024) (constant S512x1024 .f32 0x00000000#32) (ix2 r j)
      = ∑ k : Fin 256, a (ix2 r k) * w (ix2 k j) := by
  rw [shapeCast_self]
  exact Cert.LibDot.matmul_zero_plain_apply dot_S512x256_S256x1024_S512x1024_1_0_0_1_n_n rfl rfl rfl rfl rfl rfl none
    (truncf .bf16 a bitsLt_bf16_f32) w (ix2 r j)

/-- The bias row broadcast over the block's rows, at (r, j), is the row's entry j. -/
theorem bias_apply (b : FVec Ideal S1x1024 .f32) (r : Fin 512) (j : Fin 1024) :
    broadcastTo S512x1024 (shapeCast S1x1024 b shapeCasts_S1x1024_S1x1024) broadcasts_S1x1024_S512x1024 (ix2 r j)
      = b (ix2 (0 : Fin 1) j) := by
  rw [shapeCast_self]
  exact broadcastTo_1b_ab_apply b broadcasts_S1x1024_S512x1024 r j

/-- The body's pre-activations are the specification's, over the loaded weight halves and bias row. -/
theorem logits_apply (v0 : FVec Ideal S512x8x256 .f32) (v7 v10 : FVec Ideal S256x1024 .bf16) (v14 : FVec Ideal S1x1024 .f32)
    (r : Fin 512) (j : Fin 1024) :
    logits v0 v7 v10 v14 (ix2 r j)
      = logit (fun k j => v7 (ix2 k j)) (fun k j => v10 (ix2 k j)) (fun j => v14 (ix2 (0 : Fin 1) j)) v0 r j := by
  unfold logits logit
  rw [addf_apply, addf_apply, product_apply, product_apply, bias_apply]
  refine congrArg₂ (· + ·) (congrArg₂ (· + ·) (Finset.sum_congr rfl fun k _ => ?_) (Finset.sum_congr rfl fun k _ => ?_)) rfl
  · exact congrArg (· * v7 (ix2 k j)) (sum_children v0 (.inl rfl) rfl r k)
  · exact congrArg (· * v10 (ix2 k j)) (max_children v0 (.inl rfl) rfl r k)

/-! ## The gates at an index -/

/-- A gate's slice of the pre-activations: columns [256 + o, 256 + o + 256) of L, cut in two steps. -/
theorem gate_slice (L : FVec Ideal S512x1024 .f32) (o : Nat) (h1 : S512x1024.Slices ![0, 256] S512x768)
    (h2 : S512x768.Slices ![0, o] S512x256) (ho : 256 + o + 256 ≤ 1024) (r : Fin 512) (q : Fin 256) :
    extractStridedSlice S512x256 ![0, o] (extractStridedSlice S512x768 ![0, 256] L h1) h2 (ix2 r q)
      = L (ix2 r (gcol (256 + o) ho q)) :=
  (slice2_axis1_apply o _ h2 r q (⟨o + q.val, by have := q.isLt; omega⟩ : Fin 768) rfl).trans
    (slice2_axis1_apply 256 L h1 r _ (gcol (256 + o) ho q) (by show 256 + o + q.val = 256 + (o + q.val); omega))

/-- The forget gate's slice: columns [0, 256) of L. -/
theorem forget_slice (L : FVec Ideal S512x1024 .f32) (h : S512x1024.Slices ![0, 0] S512x256) (r : Fin 512) (q : Fin 256) :
    extractStridedSlice S512x256 ![0, 0] L h (ix2 r q) = L (ix2 r (gcol 0 (by decide) q)) :=
  slice2_axis1_apply 0 L h r q (gcol 0 (by decide) q) rfl

/-- The new memory the body computes at (r, q), from the pre-activations and the children's memory sum. -/
def cOf (L : FVec Ideal S512x1024 .f32) (C : FVec Ideal S512x256 .f32) (r : Fin 512) (q : Fin 256) : EReal :=
  Ideal.logistic (L (ix2 r (gcol 256 (by decide) q))) * Ideal.tanh (L (ix2 r (gcol 768 (by decide) q)))
    + Ideal.logistic (L (ix2 r (gcol 0 (by decide) q))) * C (ix2 r q)

/-- The right half of the stored block is the new memory. -/
theorem gates_right (L : FVec Ideal S512x1024 .f32) (C : FVec Ideal S512x256 .f32) (r : Fin 512) (j : Fin 512) (q : Fin 256)
    (hj : j.val = 256 + q.val) : gates L C (ix2 r j) = cOf L C r q := by
  unfold gates
  refine (Cert.LibCols.concat_cols_right _ _ concatenates_S512x256_S512x256_S512x512_d1 r j q (by omega)).trans ?_
  show (Ideal.logistic _ * Ideal.tanh _) + (Ideal.logistic _ * C (ix2 r q)) = _
  rw [gate_slice L 0 _ _ (by decide), gate_slice L 512 _ _ (by decide), forget_slice]
  rfl

/-- The left half of the stored block is the new hidden state. -/
theorem gates_left (L : FVec Ideal S512x1024 .f32) (C : FVec Ideal S512x256 .f32) (r : Fin 512) (j : Fin 512) (q : Fin 256)
    (hj : j.val = q.val) :
    gates L C (ix2 r j) = Ideal.logistic (L (ix2 r (gcol 512 (by decide) q))) * Ideal.tanh (cOf L C r q) := by
  unfold gates
  refine (Cert.LibCols.concat_cols_left _ _ concatenates_S512x256_S512x256_S512x512_d1 r j q hj.symm).trans ?_
  show Ideal.logistic _ * Ideal.tanh ((Ideal.logistic _ * Ideal.tanh _) + (Ideal.logistic _ * C (ix2 r q))) = _
  rw [gate_slice L 256 _ _ (by decide), gate_slice L 0 _ _ (by decide), gate_slice L 512 _ _ (by decide), forget_slice]
  rfl

/-! ## The stored block is the cell on the block's rows -/

theorem pay_eq (v0 v1 : FVec Ideal S512x8x256 .f32) (v7 v10 : FVec Ideal S256x1024 .bf16) (v14 : FVec Ideal S1x1024 .f32) :
    k0_pay1 (F := Ideal) v0 v1 v7 v10 v14
      = out (R := 512) (fun k j => v7 (ix2 k j)) (fun k j => v10 (ix2 k j)) (fun j => v14 (ix2 (0 : Fin 1) j)) v0 v1 := by
  funext i
  obtain ⟨r, j, rfl⟩ : ∃ (r : Fin 512) (j : Fin 512), i = ix2 r j := ⟨i 0, i 1, eq_ix2 i⟩
  rw [pay_stages]
  have hc : ∀ q : Fin 256, cOf (logits v0 v7 v10 v14)
      (multiReduction .add [1] S512x256 v1 0x00000000#32 reduces_S512x8x256_S512x256 (.inl rfl) rfl) r q
      = cNew (fun k j => v7 (ix2 k j)) (fun k j => v10 (ix2 k j)) (fun j => v14 (ix2 (0 : Fin 1) j)) v0 v1 r q := fun q => by
    unfold cOf cNew
    rw [logits_apply, logits_apply, logits_apply, sum_children v1 (.inl rfl) rfl r q]
  rcases out_cases j with ⟨q, hq⟩ | ⟨q, hq⟩
  · rw [gates_left _ _ r j q hq, out_left _ _ _ _ _ r q j hq, hc q, logits_apply]
    rfl
  · rw [gates_right _ _ r j q hq, out_right _ _ _ _ _ r q j hq, hc q]

end Cert.KernelIdeal.Body

end
-- ==== Proof.HostPrefix.lean ====
/-
  What the region finds in the arrays of its weight and bias windows.

  Before the region the host sets U_f transposed (512 × 256) beside U_iou transposed (512 × 768) into one 512 × 1024
  fused weight, cuts it along the contraction into its top 256 rows and its bottom 256 rows, and converts each half to
  bf16 (the identity on extended reals); and it sets b_f, reshaped to one row, beside b_iou into one 1 × 1024 bias row.
  Read at an index these are the specification's fused weights: entry (k, j) of the top half is U_f(j, k) for a forget
  column j < 256 and U_iou(j − 256, k) otherwise; the bottom half the same at weight column 256 + k; the bias row
  b_f(j) or b_iou(j − 256).
-/
import proofs.«122917_j29841432773236_2_alg».proof.Proof.Gen.KernelIdeal.Frame
import proofs.«122917_j29841432773236_2_alg».proof.Proof.Spec
import proofs.«122917_j29841432773236_2_alg».proof.Proof.LibCols
import Idealize.ShloMosaic.Lib.StableHlo.Run
import Idealize.ShloMosaic.Lib.ValueLayout
import Idealize.ShloMosaic.Lib.Pipeline.Value

noncomputable section

namespace Cert.KernelIdeal.Prefix

open Cert.KernelIdeal Cert.KernelIdeal.Gen Idealize.ShloMosaic Idealize.ShloMosaic.TcCoe Idealize.SL.Sem
open Idealize.ShloMosaic.StableHlo Idealize.ShloMosaic.ValueIdx Cert.TreeCell

/-! ## The host operations as functions of the parameter arrays -/

/-- The fused weight [U_fᵀ | U_iouᵀ]. -/
def fused (wf : FVec Ideal S256x512 .f32) (wiou : FVec Ideal S768x512 .f32) : FVec Ideal S512x1024 .f32 :=
  concatenate S512x1024 1 [⟨S512x256, transpose S512x256 [1, 0] wf transposes_S256x512_S512x256_1_0⟩,
    ⟨S512x768, transpose S512x768 [1, 0] wiou transposes_S768x512_S512x768_1_0⟩] concatenates_S512x256_S512x768_S512x1024_d1

/-- Its top 256 rows, in bf16. -/
def top (wf : FVec Ideal S256x512 .f32) (wiou : FVec Ideal S768x512 .f32) : FVec Ideal S256x1024 .bf16 :=
  truncf .bf16 (extractStridedSlice S256x1024 ![0, 0] (fused wf wiou) slices_S512x1024_S256x1024_0_0) bitsLt_bf16_f32

/-- Its bottom 256 rows, in bf16. -/
def bot (wf : FVec Ideal S256x512 .f32) (wiou : FVec Ideal S768x512 .f32) : FVec Ideal S256x1024 .bf16 :=
  truncf .bf16 (extractStridedSlice S256x1024 ![256, 0] (fused wf wiou) slices_S512x1024_S256x1024_256_0) bitsLt_bf16_f32

/-- The fused bias row [b_f | b_iou]. -/
def biasRow (bf : FVec Ideal S256 .f32) (biou : FVec Ideal S1x768 .f32) : FVec Ideal S1x1024 .f32 :=
  concatenate S1x1024 1 [⟨S1x256, shapeCast S1x256 bf shapeCasts_S256_S1x256⟩, ⟨S1x768, biou⟩] concatenates_S1x256_S1x768_S1x1024_d1

/-! ## Read at an index -/

/-- Row kk, column j of the fused weight: U_f(j, kk) for a forget column, U_iou(j − 256, kk) otherwise. -/
theorem fused_apply (wf : FVec Ideal S256x512 .f32) (wiou : FVec Ideal S768x512 .f32) (kk : Fin 512) (j : Fin 1024) :
    fused wf wiou (ix2 kk j)
      = if hj : j.val < 256 then wf (ix2 ⟨j.val, hj⟩ kk) else wiou (ix2 ⟨j.val - 256, by have := j.isLt; omega⟩ kk) := by
  unfold fused
  split
  · next hj =>
    exact (Cert.LibCols.concat_cols_left _ _ concatenates_S512x256_S512x768_S512x1024_d1 kk j ⟨j.val, hj⟩ rfl).trans
      (transpose_ix2_apply wf transposes_S256x512_S512x256_1_0 kk ⟨j.val, hj⟩)
  · next hj =>
    exact (Cert.LibCols.concat_cols_right _ _ concatenates_S512x256_S512x768_S512x1024_d1 kk j
        (⟨j.val - 256, by have := j.isLt; omega⟩ : Fin 768) (by show j.val - 256 + 256 = j.val; omega)).trans
      (transpose_ix2_apply wiou transposes_S768x512_S512x768_1_0 kk ⟨j.val - 256, by have := j.isLt; omega⟩)

/-- The top half is the fused weight rows that meet the children's sum. -/
theorem top_apply (wf : FVec Ideal S256x512 .f32) (wiou : FVec Ideal S768x512 .f32) (k : Fin 256) (j : Fin 1024) :
    top wf wiou (ix2 k j) = wTop wf wiou k j := by
  show extractStridedSlice S256x1024 ![0, 0] (fused wf wiou) slices_S512x1024_S256x1024_0_0 (ix2 k j) = _
  rw [slice2_axis0_apply 0 _ slices_S512x1024_S256x1024_0_0 k j (⟨k.val, by have := k.isLt; omega⟩ : Fin 512) (Nat.zero_add _).symm,
    fused_apply]
  rfl

/-- The bottom half is the fused weight rows that meet the children's maximum. -/
theorem bot_apply (wf : FVec Ideal S256x512 .f32) (wiou : FVec Ideal S768x512 .f32) (k : Fin 256) (j : Fin 1024) :
    bot wf wiou (ix2 k j) = wBot wf wiou k j := by
  show extractStridedSlice S256x1024 ![256, 0] (fused wf wiou) slices_S512x1024_S256x1024_256_0 (ix2 k j) = _
  rw [slice2_axis0_apply 256 _ slices_S512x1024_S256x1024_256_0 k j (⟨256 + k.val, by have := k.isLt; omega⟩ : Fin 512) rfl,
    fused_apply]
  rfl

/-- The bias row is the fused bias. -/
theorem biasRow_apply (bf : FVec Ideal S256 .f32) (biou : FVec Ideal S1x768 .f32) (j : Fin 1024) :
    biasRow bf biou (ix2 (0 : Fin 1) j) = bFused bf biou j := by
  unfold biasRow bFused
  split
  · next hj =>
    exact (Cert.LibCols.concat_cols_left _ _ concatenates_S1x256_S1x768_S1x1024_d1 (0 : Fin 1) j ⟨j.val, hj⟩ rfl).trans
      (shapeCast_a_1a_apply bf shapeCasts_S256_S1x256 (0 : Fin 1) ⟨j.val, hj⟩)
  · next hj =>
    exact Cert.LibCols.concat_cols_right _ _ concatenates_S1x256_S1x768_S1x1024_d1 (0 : Fin 1) j
      (⟨j.val - 256, by have := j.isLt; omega⟩ : Fin 768) (by show j.val - 256 + 256 = j.val; omega)

/-! ## The arrays at region entry -/

variable (m : (ℓ : Loc nD τ sig) → Buf (Elt Ideal) ℓ) (c : Dev nD)

/-- The array of the window that stages the weight's top half. -/
theorem V_top : (V m c main_v4 : S256x1024.Idx → EReal)
    = top (m ((c : Thread nD τ).loc main_arg4)) (m ((c : Thread nD τ).loc main_arg2)) := by
  dsimp only [Gen.V, Gen.hostOps0]; after_results; rfl

/-- The array of the window that stages the weight's bottom half. -/
theorem V_bot : (V m c main_v6 : S256x1024.Idx → EReal)
    = bot (m ((c : Thread nD τ).loc main_arg4)) (m ((c : Thread nD τ).loc main_arg2)) := by
  dsimp only [Gen.V, Gen.hostOps0]; after_results; rfl

/-- The array of the window that stages the bias row. -/
theorem V_bias : (V m c main_v8 : S1x1024.Idx → EReal)
    = biasRow (m ((c : Thread nD τ).loc main_arg5)) (m ((c : Thread nD τ).loc main_arg3)) := by
  dsimp only [Gen.V, Gen.hostOps0]; after_results; rfl

end Cert.KernelIdeal.Prefix

end
-- ==== Proof.KernelValue.lean ====
/-
  The kernel's result array is the cell.

  The grid has 64 points. Point t stages rows 512·t … 512·t + 511 of the two mailboxes, the whole of the two weight
  halves and of the bias row (the same block at every point), computes the cell on those 512 rows and writes it back to
  rows 512·t … 512·t + 511 of the result. A row of the cell reads only that row of the mailboxes, so what point t writes
  is block t of the cell of the whole arrays; and every row r lies in the block of point r / 512, so the 64 blocks cover
  the result array, which therefore ends holding the cell.
-/
import proofs.«122917_j29841432773236_2_alg».proof.Proof.Gen.KernelIdeal.Value
import proofs.«122917_j29841432773236_2_alg».proof.Proof.Payload
import proofs.«122917_j29841432773236_2_alg».proof.Proof.HostPrefix
import proofs.«122917_j29841432773236_2_alg».proof.Proof.Spec
import Idealize.ShloMosaic.Lib.Pipeline.Value

set_option maxRecDepth 16384

noncomputable section

namespace Cert.KernelIdeal.KValue

open Cert.KernelIdeal Cert.KernelIdeal.Gen Idealize.ShloMosaic Idealize.ShloMosaic.TcCoe Idealize.SL.Sem
open Idealize.ShloMosaic.ValueIdx Cert.TreeCell
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices over the 64 grid points: the mailboxes and the result move with the point along the rows, the
    weights and the bias stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 64 := lt_of_lt_of_eq t.isLt (N_0 : cfg0.N = 64)

/-! ## The input blocks at a point -/

/-- The hidden mailbox's block at point t is rows 512·t … of the argument. -/
theorem hidden_block (c : Dev nD) (t : Fin cfg0.N) (r : Fin 512) (k : Fin 8) (q : Fin 256) :
    (iblk m c 0 t : FVec Ideal S512x8x256 .f32) (ix3 r k q)
      = (m ((c : Thread nD τ).loc main_arg0) : S32768x8x256.Idx → EReal)
          (ix3 (⟨512 * t.val + r.val, by have := point_lt t; have := r.isLt; omega⟩ : Fin 32768) k q) := by
  obtain ⟨e0, e1, e2, -⟩ := idx_facts t
  unfold iblk
  rw [View.read_apply]
  show V m c main_arg0 _ = _
  rw [V_main_arg0]
  refine congrArg (m ((c : Thread nD τ).loc main_arg0) : S32768x8x256.Idx → EReal) (funext fun a => Fin.ext ?_)
  match a with
  | ⟨0, _⟩ => show win0_0.index t (0 : Fin 3) * 512 + 1 * r.val = 512 * t.val + r.val; rw [e0]; omega
  | ⟨1, _⟩ => show win0_0.index t (1 : Fin 3) * 8 + 1 * k.val = k.val; rw [e1]; omega
  | ⟨2, _⟩ => show win0_0.index t (2 : Fin 3) * 256 + 1 * q.val = q.val; rw [e2]; omega

/-- The memory mailbox's block at point t is rows 512·t … of the argument. -/
theorem memory_block (c : Dev nD) (t : Fin cfg0.N) (r : Fin 512) (k : Fin 8) (q : Fin 256) :
    (iblk m c 1 t : FVec Ideal S512x8x256 .f32) (ix3 r k q)
      = (m ((c : Thread nD τ).loc main_arg1) : S32768x8x256.Idx → EReal)
          (ix3 (⟨512 * t.val + r.val, by have := point_lt t; have := r.isLt; omega⟩ : Fin 32768) k q) := by
  obtain ⟨-, -, -, e0, e1, e2, -⟩ := idx_facts t
  unfold iblk
  rw [View.read_apply]
  show V m c main_arg1 _ = _
  rw [V_main_arg1]
  refine congrArg (m ((c : Thread nD τ).loc main_arg1) : S32768x8x256.Idx → EReal) (funext fun a => Fin.ext ?_)
  match a with
  | ⟨0, _⟩ => show win0_1.index t (0 : Fin 3) * 512 + 1 * r.val = 512 * t.val + r.val; rw [e0]; omega
  | ⟨1, _⟩ => show win0_1.index t (1 : Fin 3) * 8 + 1 * k.val = k.val; rw [e1]; omega
  | ⟨2, _⟩ => show win0_1.index t (2 : Fin 3) * 256 + 1 * q.val = q.val; rw [e2]; omega

/-- The top weight half's block at every point is the whole of it: the fused rows that meet the children's sum. -/
theorem top_block (c : Dev nD) (t : Fin cfg0.N) (k : Fin 256) (j : Fin 1024) :
    (iblk m c 2 t : FVec Ideal S256x1024 .bf16) (ix2 k j)
      = wTop (m ((c : Thread nD τ).loc main_arg4)) (m ((c : Thread nD τ).loc main_arg2)) k j := by
  obtain ⟨-, -, -, -, -, -, e0, e1, -⟩ := idx_facts t
  unfold iblk
  rw [View.read_apply]
  show (V m c main_v4 : S256x1024.Idx → EReal) _ = _
  rw [Prefix.V_top]
  refine (congrArg (Prefix.top (m ((c : Thread nD τ).loc main_arg4)) (m ((c : Thread nD τ).loc main_arg2)))
    (funext fun a => Fin.ext ?_)).trans (Prefix.top_apply _ _ k j)
  match a with
  | ⟨0, _⟩ => show win0_2.index t (0 : Fin 2) * 256 + 1 * k.val = k.val; rw [e0]; omega
  | ⟨1, _⟩ => show win0_2.index t (1 : Fin 2) * 1024 + 1 * j.val = j.val; rw [e1]; omega

/-- The bottom weight half's block at every point: the fused rows that meet the children's maximum. -/
theorem bot_block (c : Dev nD) (t : Fin cfg0.N) (k : Fin 256) (j : Fin 1024) :
    (iblk m c 3 t : FVec Ideal S256x1024 .bf16) (ix2 k j)
      = wBot (m ((c : Thread nD τ).loc main_arg4)) (m ((c : Thread nD τ).loc main_arg2)) k j := by
  obtain ⟨-, -, -, -, -, -, -, -, e0, e1, -⟩ := idx_facts t
  unfold iblk
  rw [View.read_apply]
  show (V m c main_v6 : S256x1024.Idx → EReal) _ = _
  rw [Prefix.V_bot]
  refine (congrArg (Prefix.bot (m ((c : Thread nD τ).loc main_arg4)) (m ((c : Thread nD τ).loc main_arg2)))
    (funext fun a => Fin.ext ?_)).trans (Prefix.bot_apply _ _ k j)
  match a with
  | ⟨0, _⟩ => show win0_3.index t (0 : Fin 2) * 256 + 1 * k.val = k.val; rw [e0]; omega
  | ⟨1, _⟩ => show win0_3.index t (1 : Fin 2) * 1024 + 1 * j.val = j.val; rw [e1]; omega

/-- The bias row's block at every point: the fused bias. -/
theorem bias_block (c : Dev nD) (t : Fin cfg0.N) (j : Fin 1024) :
    (iblk m c 4 t : FVec Ideal S1x1024 .f32) (ix2 (0 : Fin 1) j)
      = bFused (m ((c : Thread nD τ).loc main_arg5)) (m ((c : Thread nD τ).loc main_arg3)) j := by
  obtain ⟨-, -, -, -, -, -, -, -, -, -, e0, e1, -⟩ := idx_facts t
  unfold iblk
  rw [View.read_apply]
  show (V m c main_v8 : S1x1024.Idx → EReal) _ = _
  rw [Prefix.V_bias]
  refine (congrArg (Prefix.biasRow (m ((c : Thread nD τ).loc main_arg5)) (m ((c : Thread nD τ).loc main_arg3)))
    (funext fun a => Fin.ext ?_)).trans (Prefix.biasRow_apply _ _ j)
  match a with
  | ⟨0, _⟩ => show win0_4.index t (0 : Fin 2) * 1 + 1 * 0 = 0; rw [e0]
  | ⟨1, _⟩ => show win0_4.index t (1 : Fin 2) * 1024 + 1 * j.val = j.val; rw [e1]; omega

/-! ## What a point writes back -/

/-- The cell on a block of 512 rows whose mailbox rows are rows 512·T … of the whole mailboxes and whose weights and bias
    are the fused ones, at row r, is the cell of the whole arrays at row 512·T + r. -/
theorem block_value (H C : (⟨3, ![32768, 8, 256]⟩ : Shape).Idx → EReal) (Wt Wb : Fin 256 → Fin 1024 → EReal) (B : Fin 1024 → EReal)
    (x0 x1 : FVec Ideal S512x8x256 .f32) (x2 x3 : FVec Ideal S256x1024 .bf16) (x4 : FVec Ideal S1x1024 .f32)
    (T : Nat) (hT : T < 64)
    (h0 : ∀ (r : Fin 512) (k : Fin 8) (q : Fin 256), x0 (ix3 r k q)
      = H (ix3 (⟨512 * T + r.val, by have := r.isLt; omega⟩ : Fin 32768) k q))
    (h1 : ∀ (r : Fin 512) (k : Fin 8) (q : Fin 256), x1 (ix3 r k q)
      = C (ix3 (⟨512 * T + r.val, by have := r.isLt; omega⟩ : Fin 32768) k q))
    (h2 : ∀ k j, x2 (ix2 k j) = Wt k j) (h3 : ∀ k j, x3 (ix2 k j) = Wb k j) (h4 : ∀ j, x4 (ix2 (0 : Fin 1) j) = B j)
    (r : Fin 512) (j : Fin 512) :
    k0_pay1 (F := Ideal) x0 x1 x2 x3 x4 (ix2 r j)
      = out Wt Wb B H C (ix2 (⟨512 * T + r.val, by have := r.isLt; omega⟩ : Fin 32768) j) := by
  rw [Body.pay_eq]
  obtain rfl : (fun k j => x2 (ix2 k j)) = Wt := funext fun k => funext fun j => h2 k j
  obtain rfl : (fun k j => x3 (ix2 k j)) = Wb := funext fun k => funext fun j => h3 k j
  obtain rfl : (fun j => x4 (ix2 (0 : Fin 1) j)) = B := funext fun j => h4 j
  exact out_congr _ _ _ x0 x1 H C r _ (h0 r) (h1 r) j

/-- What point t writes back is block t of the cell of the argument arrays. -/
theorem flushed_eq (c : Dev nD) (t : Fin cfg0.N) :
    (dats m 0 c).flushed 5 t = ((cfg0.win 5).blk t).view.read (Elt Ideal)
      (cell (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Cert.KernelIdeal.Value.flushed5]
  unfold out0_5
  rw [View.canon_unit_zero hz2]
  simp only [View.ld_unit_zero (S := S512x8x256) hz3, View.ld_unit_zero (S := S256x1024) hz2, View.ld_unit_zero (S := S1x1024) hz2]
  obtain ⟨-, -, -, -, -, -, -, -, -, -, -, -, e0, e1⟩ := idx_facts t
  funext y
  show k0_pay1 (F := Ideal) (iblk m c 0 t) (iblk m c 1 t) (iblk m c 2 t) (iblk m c 3 t) (iblk m c 4 t) y
    = cell (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (((cfg0.win 5).blk t).view.emb y)
  have hy0 : (y 0).val < 512 := (y 0).isLt
  have hy1 : (y 1).val < 512 := (y 1).isLt
  have key := block_value (m ((c : Thread nD τ).loc main_arg0)) (m ((c : Thread nD τ).loc main_arg1))
    (wTop (m ((c : Thread nD τ).loc main_arg4)) (m ((c : Thread nD τ).loc main_arg2)))
    (wBot (m ((c : Thread nD τ).loc main_arg4)) (m ((c : Thread nD τ).loc main_arg2)))
    (bFused (m ((c : Thread nD τ).loc main_arg5)) (m ((c : Thread nD τ).loc main_arg3)))
    (iblk m c 0 t) (iblk m c 1 t) (iblk m c 2 t) (iblk m c 3 t) (iblk m c 4 t) t.val (point_lt t)
    (hidden_block m c t) (memory_block m c t) (top_block m c t) (bot_block m c t) (bias_block m c t)
    ⟨(y 0).val, hy0⟩ ⟨(y 1).val, hy1⟩
  refine (congrArg (k0_pay1 (F := Ideal) (iblk m c 0 t) (iblk m c 1 t) (iblk m c 2 t) (iblk m c 3 t) (iblk m c 4 t))
    (funext fun a => Fin.ext (by match a with | ⟨0, _⟩ => rfl | ⟨1, _⟩ => rfl))).trans (key.trans ?_)
  refine congrArg (cell (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)))
    (funext fun a => Fin.ext ?_)
  match a with
  | ⟨0, _⟩ => show 512 * t.val + (y 0).val = win0_5.index t (0 : Fin 2) * 512 + 1 * (y 0).val; rw [e0]; omega
  | ⟨1, _⟩ => show (y 1).val = win0_5.index t (1 : Fin 2) * 512 + 1 * (y 1).val; rw [e1]; omega

/-! ## The blocks cover the array -/

/-- An index of the result is in point t's block iff each coordinate is in the block's range on its axis. -/
theorem mem_blk (t : Fin cfg0.N) (i : S32768x512.Idx) :
    i ∈ ((cfg0.win 5).blk t).view.set ↔ ∀ a : Fin 2, win0_5.index t a * S512x512.size a ≤ (i a).val
      ∧ (i a).val < win0_5.index t a * S512x512.size a + S512x512.size a := by
  show i ∈ ((View.whole main_v9).slice (win0_5.rect t)).set ↔ _
  rw [View.set_slice_whole, Rect.mem_set_unit]
  exact Iff.rfl

/-- Row r of the result lies in the block of point r / 512. -/
theorem cover (i : S32768x512.Idx) :
    ∃ t : Fin cfg0.N, (cfg0.win 5).flush t = true ∧ i ∈ ((cfg0.win 5).blk t).view.set := by
  have hi0 : (i 0).val < 32768 := (i 0).isLt
  have hi1 : (i 1).val < 512 := (i 1).isLt
  have hN : cfg0.N = 64 := N_0
  have hlt : (i 0).val / 512 < cfg0.N := by rw [hN]; omega
  obtain ⟨-, -, -, -, -, -, -, -, -, -, -, -, e0, e1⟩ := idx_facts ⟨(i 0).val / 512, hlt⟩
  refine ⟨⟨(i 0).val / 512, hlt⟩, flush0_5 _, ?_⟩
  rw [mem_blk]
  intro a
  match a with
  | ⟨0, _⟩ =>
    show win0_5.index ⟨(i 0).val / 512, hlt⟩ (0 : Fin 2) * 512 ≤ (i 0).val
      ∧ (i 0).val < win0_5.index ⟨(i 0).val / 512, hlt⟩ (0 : Fin 2) * 512 + 512
    rw [e0]; show (i 0).val / 512 * 512 ≤ (i 0).val ∧ (i 0).val < (i 0).val / 512 * 512 + 512; omega
  | ⟨1, _⟩ =>
    show win0_5.index ⟨(i 0).val / 512, hlt⟩ (1 : Fin 2) * 512 ≤ (i 1).val
      ∧ (i 1).val < win0_5.index ⟨(i 0).val / 512, hlt⟩ (1 : Fin 2) * 512 + 512
    rw [e1]; omega

/-- The result array after the run is the cell of the argument arrays. -/
theorem final (c : Dev nD) : (dats m 0 c).arrAt 5 cfg0.N
    = cell (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 5 _ (fun t _ => flushed_eq m c t) cover

/-- The kernel's run: the result array at the cell, the arguments unchanged. -/
theorem run : θ_run defs (onTc (τ := τ) (main (F := Ideal))) ⟨m, fun _ => 0, ρ⟩ fun r => ∀ c : Dev nD,
      r.2.mem ((c : Thread nD τ).loc main_v9)
        = cell (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.KValue

end
-- ==== Proof.lean ====
/-
  A child-sum Tree-LSTM cell over a mailbox of eight children, as one pipelined kernel, against its jnp reference.

  Inputs: the children's hidden states h and memories c (32768 × 8 × 256 each), U_iou (768 × 512), b_iou (1 × 768),
  U_f (256 × 512), b_f (256). For every node n the cell sums and maximises h(n,k,·) over the eight children k, forms
  the four gate pre-activations from the 512-wide row [Σ_k h | max_k h] (the forget gate by U_f and b_f, the input, output
  and update gates by the three row blocks of U_iou and b_iou), and returns the row [σ(o)·tanh(c') | c'] with
  c' = σ(i)·tanh(u) + σ(f)·Σ_k c(n,k,·) — Spec.lean states this as one function `cell` of the six arrays, index by index.

  The kernel fuses the two weights into one 512 × 1024 matrix on the host, cuts it along the contraction into the half
  that meets Σ_k h and the half that meets max_k h (HostPrefix.lean), and at each of 64 grid points computes the cell on
  512 rows with two matrix products added (Payload.lean); the 64 row blocks cover the result (KernelValue.lean). The
  reference concatenates [Σ_k h | max_k h] and multiplies by each transposed weight, so each pre-activation is ONE sum
  over 512 contraction indices — the kernel's two half sums, by re-association — spells the logistic function as
  1 / (1 + e^(−x)), its definition on the extended reals, and aggregates the memories as Σ_k σ(f)·c_k where the kernel has
  σ(f)·Σ_k c_k: equal because σ(f) is a non-negative real, over which multiplication distributes on the extended reals
  whatever the c_k (RefValue.lean). No step needs the inputs finite, so the precondition is never opened.

  The three frames are the generated frame certificates of the two kernel programs and the reference's run with its
  result dropped; the idealization rewrote nothing, so `preserves` is `True`.
-/
import proofs.«122917_j29841432773236_2_alg».proof.Defs
import proofs.«122917_j29841432773236_2_alg».proof.Proof.Gen.Kernel
import proofs.«122917_j29841432773236_2_alg».proof.Proof.Gen.Kernel.Skeleton
import proofs.«122917_j29841432773236_2_alg».proof.Proof.Gen.Kernel.Launch
import proofs.«122917_j29841432773236_2_alg».proof.Proof.Gen.Kernel.Points
import proofs.«122917_j29841432773236_2_alg».proof.Proof.Gen.Kernel.Frame
import proofs.«122917_j29841432773236_2_alg».proof.Proof.Gen.KernelIdeal
import proofs.«122917_j29841432773236_2_alg».proof.Proof.Gen.KernelIdeal.Skeleton
import proofs.«122917_j29841432773236_2_alg».proof.Proof.Gen.KernelIdeal.Launch
import proofs.«122917_j29841432773236_2_alg».proof.Proof.Gen.KernelIdeal.Points
import proofs.«122917_j29841432773236_2_alg».proof.Proof.Gen.KernelIdeal.Frame
import proofs.«122917_j29841432773236_2_alg».proof.Proof.Gen.ReferenceIdeal
import proofs.«122917_j29841432773236_2_alg».proof.Proof.Gen.Pre_finite_inputs
import proofs.«122917_j29841432773236_2_alg».proof.Proof.Gen.KernelIdeal.Value
import proofs.«122917_j29841432773236_2_alg».proof.Proof.RefRun
import proofs.«122917_j29841432773236_2_alg».proof.Proof.RefRead
import proofs.«122917_j29841432773236_2_alg».proof.Proof.Spec
import proofs.«122917_j29841432773236_2_alg».proof.Proof.RefValue
import proofs.«122917_j29841432773236_2_alg».proof.Proof.KernelValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- On the extended reals both programs end with the cell of their (agreeing) arguments in their result arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v42_eq, Cert.ReferenceIdeal.RefValue.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
